-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x256x224x224 : Shape := ⟨4, ![3, 256, 224, 224]⟩
abbrev S256x128 : Shape := ⟨2, ![256, 128]⟩
abbrev S_ : Shape := ⟨0, ![]⟩

class Facts : Prop where
  bcast_S_S3x256x224x224 : S_.BroadcastsInDim S3x256x224x224 (![] : Fin 0 → Fin S3x256x224x224.rank)
  reducesTo_S3x256x224x224_S_d0_1_2_3 : S3x256x224x224.ReducesTo [0, 1, 2, 3] S_
  h_S_ : 0 < S_.numel

variable [Facts]

def fn {F : FTy → Type} [FloatOps F] (main_arg0 : FVec F S3x256x224x224 .f32) (main_arg1 : IVec S256x128 32) : IVec S_ 1 :=
  let main_v0 : FVec F S3x256x224x224 .f32 := Host.absf main_arg0
  let main_cst : FVec F S_ .f32 := constant S_ .f32 0x7F800000#32
  let main_v1 : FVec F S3x256x224x224 .f32 := broadcastInDim S3x256x224x224 ![] bcast_S_S3x256x224x224 main_cst
  let main_v2 : IVec S3x256x224x224 1 := cmpf .olt main_v0 main_v1
  let main_c : IVec S_ 1 := constantI S_ 1 1#1
  let main_v3 : IVec S_ 1 := (fun x v => Host.reduce IntOp.andi x v reducesTo_S3x256x224x224_S_d0_1_2_3 h_S_) main_v2 main_c
  main_v3
-- ==== Kernel.lean ====
abbrev S3x256x224x224 : Shape := ⟨4, ![3, 256, 224, 224]⟩
abbrev S256x128 : Shape := ⟨2, ![256, 128]⟩
abbrev S_ : Shape := ⟨0, ![]⟩
abbrev S256 : Shape := ⟨1, ![256]⟩
abbrev S256x1 : Shape := ⟨2, ![256, 1]⟩
abbrev S256x16x16 : Shape := ⟨3, ![256, 16, 16]⟩
abbrev S256x128x1 : Shape := ⟨3, ![256, 128, 1]⟩
abbrev S256x128x3 : Shape := ⟨3, ![256, 128, 3]⟩
abbrev S224 : Shape := ⟨1, ![224]⟩
abbrev S16 : Shape := ⟨1, ![16]⟩
abbrev S1x224 : Shape := ⟨2, ![1, 224]⟩
abbrev S16x1 : Shape := ⟨2, ![16, 1]⟩
abbrev S16x224 : Shape := ⟨2, ![16, 224]⟩
abbrev S3x8x224x224 : Shape := ⟨4, ![3, 8, 224, 224]⟩
abbrev S8x16x16 : Shape := ⟨3, ![8, 16, 16]⟩
abbrev S8x16x1x16 : Shape := ⟨4, ![8, 16, 1, 16]⟩
abbrev S8x16x14x16 : Shape := ⟨4, ![8, 16, 14, 16]⟩
abbrev S8x224x16 : Shape := ⟨3, ![8, 224, 16]⟩
abbrev S1792x16 : Shape := ⟨2, ![1792, 16]⟩
abbrev S1792x224 : Shape := ⟨2, ![1792, 224]⟩
abbrev S8x224x224 : Shape := ⟨3, ![8, 224, 224]⟩
abbrev S1x8x224x224 : Shape := ⟨4, ![1, 8, 224, 224]⟩

abbrev nBuf : Space → Nat
  | .hbm => 102
  | .vmem => 7
  | .smem => 0
  | _ => 0

abbrev bufTy : (tb : Table) → Fin (tcTables nBuf tb) → BufTy
  | .hbm, ⟨0, _⟩ => ⟨S3x256x224x224, .f32⟩
  | .hbm, ⟨1, _⟩ => ⟨S256x128, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S256x128, .i32⟩
  | .hbm, ⟨9, _⟩ => ⟨S256x128, .i32⟩
  | .hbm, ⟨10, _⟩ => ⟨S_, .i32⟩
  | .hbm, ⟨11, _⟩ => ⟨S256x128, .i32⟩
  | .hbm, ⟨12, _⟩ => ⟨S256x128, .i1⟩
  | .hbm, ⟨13, _⟩ => ⟨S_, .i32⟩
  | .hbm, ⟨14, _⟩ => ⟨S256x128, .i32⟩
  | .hbm, ⟨15, _⟩ => ⟨S256x128, .i1⟩
  | .hbm, ⟨16, _⟩ => ⟨S_, .i32⟩
  | .hbm, ⟨17, _⟩ => ⟨S_, .i1⟩
  | .hbm, ⟨18, _⟩ => ⟨S256x128, .i1⟩
  | .hbm, ⟨19, _⟩ => ⟨S256x128, .i1⟩
  | .hbm, ⟨20, _⟩ => ⟨S256x128, .i1⟩
  | .hbm, ⟨21, _⟩ => ⟨S256x128, .i32⟩
  | .hbm, ⟨22, _⟩ => ⟨S256x128, .i32⟩
  | .hbm, ⟨23, _⟩ => ⟨S256x128, .i32⟩
  | .hbm, ⟨24, _⟩ => ⟨S_, .i32⟩
  | .hbm, ⟨25, _⟩ => ⟨S_, .i32⟩
  | .hbm, ⟨26, _⟩ => ⟨S256x128, .i32⟩
  | .hbm, ⟨27, _⟩ => ⟨S256x128, .i32⟩
  | .hbm, ⟨28, _⟩ => ⟨S256x128, .i32⟩
  | .hbm, ⟨29, _⟩ => ⟨S_, .i32⟩
  | .hbm, ⟨30, _⟩ => ⟨S256x128, .i32⟩
  | .hbm, ⟨31, _⟩ => ⟨S256x128, .i1⟩
  | .hbm, ⟨32, _⟩ => ⟨S256x128, .i32⟩
  | .hbm, ⟨33, _⟩ => ⟨S256x128, .i32⟩
  | .hbm, ⟨34, _⟩ => ⟨S_, .i32⟩
  | .hbm, ⟨35, _⟩ => ⟨S256x128, .i32⟩
  | .hbm, ⟨36, _⟩ => ⟨S256x128, .i1⟩
  | .hbm, ⟨37, _⟩ => ⟨S256x128, .i1⟩
  | .hbm, ⟨38, _⟩ => ⟨S_, .i32⟩
  | .hbm, ⟨39, _⟩ => ⟨S256x128, .i32⟩
  | .hbm, ⟨40, _⟩ => ⟨S256x128, .i32⟩
  | .hbm, ⟨41, _⟩ => ⟨S256x128, .i32⟩
  | .hbm, ⟨42, _⟩ => ⟨S256, .i32⟩
  | .hbm, ⟨43, _⟩ => ⟨S256x1, .i32⟩
  | .hbm, ⟨44, _⟩ => ⟨S_, .f32⟩
  | .hbm, ⟨45, _⟩ => ⟨S256x16x16, .f32⟩
  | .hbm, ⟨46, _⟩ => ⟨S_, .i32⟩
  | .hbm, ⟨47, _⟩ => ⟨S256x1, .i32⟩
  | .hbm, ⟨48, _⟩ => ⟨S256x1, .i1⟩
  | .hbm, ⟨49, _⟩ => ⟨S_, .i32⟩
  | .hbm, ⟨50, _⟩ => ⟨S256x1, .i32⟩
  | .hbm, ⟨51, _⟩ => ⟨S256x1, .i32⟩
  | .hbm, ⟨52, _⟩ => ⟨S256x1, .i32⟩
  | .hbm, ⟨53, _⟩ => ⟨S_, .i32⟩
  | .hbm, ⟨54, _⟩ => ⟨S256x128, .i32⟩
  | .hbm, ⟨55, _⟩ => ⟨S256x128, .i1⟩
  | .hbm, ⟨56, _⟩ => ⟨S_, .i32⟩
  | .hbm, ⟨57, _⟩ => ⟨S256x128, .i32⟩
  | .hbm, ⟨58, _⟩ => ⟨S256x128, .i32⟩
  | .hbm, ⟨59, _⟩ => ⟨S256x128, .i32⟩
  | .hbm, ⟨60, _⟩ => ⟨S_, .i32⟩
  | .hbm, ⟨61, _⟩ => ⟨S256x128, .i32⟩
  | .hbm, ⟨62, _⟩ => ⟨S256x128, .i1⟩
  | .hbm, ⟨63, _⟩ => ⟨S_, .i32⟩
  | .hbm, ⟨64, _⟩ => ⟨S256x128, .i32⟩
  | .hbm, ⟨65, _⟩ => ⟨S256x128, .i32⟩
  | .hbm, ⟨66, _⟩ => ⟨S256x128, .i32⟩
  | .hbm, ⟨67, _⟩ => ⟨S256x128, .i32⟩
  | .hbm, ⟨68, _⟩ => ⟨S256x128x1, .i32⟩
  | .hbm, ⟨69, _⟩ => ⟨S256x128x1, .i32⟩
  | .hbm, ⟨70, _⟩ => ⟨S256x128x1, .i32⟩
  | .hbm, ⟨71, _⟩ => ⟨S256x128x3, .i32⟩
  | .hbm, ⟨72, _⟩ => ⟨S_, .f32⟩
  | .hbm, ⟨73, _⟩ => ⟨S256x128, .f32⟩
  | .hbm, ⟨74, _⟩ => ⟨S256x16x16, .f32⟩
  | .hbm, ⟨75, _⟩ => ⟨S224, .i32⟩
  | .hbm, ⟨76, _⟩ => ⟨S16, .i32⟩
  | .hbm, ⟨77, _⟩ => ⟨S1x224, .i32⟩
  | .hbm, ⟨78, _⟩ => ⟨S_, .i32⟩
  | .hbm, ⟨79, _⟩ => ⟨S_, .i32⟩
  | .hbm, ⟨80, _⟩ => ⟨S1x224, .i32⟩
  | .hbm, ⟨81, _⟩ => ⟨S1x224, .i32⟩
  | .hbm, ⟨82, _⟩ => ⟨S1x224, .i32⟩
  | .hbm, ⟨83, _⟩ => ⟨S_, .i32⟩
  | .hbm, ⟨84, _⟩ => ⟨S1x224, .i32⟩
  | .hbm, ⟨85, _⟩ => ⟨S1x224, .i1⟩
  | .hbm, ⟨86, _⟩ => ⟨S1x224, .i32⟩
  | .hbm, ⟨87, _⟩ => ⟨S1x224, .i32⟩
  | .hbm, ⟨88, _⟩ => ⟨S_, .i32⟩
  | .hbm, ⟨89, _⟩ => ⟨S1x224, .i32⟩
  | .hbm, ⟨90, _⟩ => ⟨S1x224, .i1⟩
  | .hbm, ⟨91, _⟩ => ⟨S1x224, .i1⟩
  | .hbm, ⟨92, _⟩ => ⟨S_, .i32⟩
  | .hbm, ⟨93, _⟩ => ⟨S1x224, .i32⟩
  | .hbm, ⟨94, _⟩ => ⟨S1x224, .i32⟩
  | .hbm, ⟨95, _⟩ => ⟨S1x224, .i32⟩
  | .hbm, ⟨96, _⟩ => ⟨S16x1, .i32⟩
  | .hbm, ⟨97, _⟩ => ⟨S16x224, .i32⟩
  | .hbm, ⟨98, _⟩ => ⟨S16x224, .i32⟩
  | .hbm, ⟨99, _⟩ => ⟨S16x224, .i1⟩
  | .hbm, ⟨100, _⟩ => ⟨S16x224, .bf16⟩
  | .hbm, ⟨101, _⟩ => ⟨S3x256x224x224, .f32⟩
  | .local _ .vmem, ⟨0, _⟩ => ⟨S3x8x224x224, .f32⟩
  | .local _ .vmem, ⟨1, _⟩ => ⟨S3x8x224x224, .f32⟩
  | .local _ .vmem, ⟨2, _⟩ => ⟨S8x16x16, .f32⟩
  | .local _ .vmem, ⟨3, _⟩ => ⟨S8x16x16, .f32⟩
  | .local _ .vmem, ⟨4, _⟩ => ⟨S16x224, .bf16⟩
  | .local _ .vmem, ⟨5, _⟩ => ⟨S3x8x224x224, .f32⟩
  | .local _ .vmem, ⟨6, _⟩ => ⟨S3x8x224x224, .f32⟩
  | _, _ => ⟨S3x256x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_v5 : Ref sig .tc := ⟨.hbm, 11, rfl⟩
abbrev main_call0_v6 : Ref sig .tc := ⟨.hbm, 12, rfl⟩
abbrev main_call0_c_2 : Ref sig .tc := ⟨.hbm, 13, rfl⟩
abbrev main_call0_v7 : Ref sig .tc := ⟨.hbm, 14, rfl⟩
abbrev main_call0_v8 : Ref sig .tc := ⟨.hbm, 15, rfl⟩
abbrev main_call0_c_3 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_v0 : Ref sig .tc := ⟨.hbm, 23, rfl⟩
abbrev main_c_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_cst : Ref sig .tc := ⟨.hbm, 44, rfl⟩
abbrev main_v4 : Ref sig .tc := ⟨.hbm, 45, rfl⟩
abbrev main_c_1 : Ref sig .tc := ⟨.hbm, 46, rfl⟩
abbrev main_v5 : Ref sig .tc := ⟨.hbm, 47, rfl⟩
abbrev main_v6 : Ref sig .tc := ⟨.hbm, 48, rfl⟩
abbrev main_c_2 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_c_3 : Ref sig .tc := ⟨.hbm, 53, rfl⟩
abbrev main_v10 : Ref sig .tc := ⟨.hbm, 54, rfl⟩
abbrev main_v11 : Ref sig .tc := ⟨.hbm, 55, rfl⟩
abbrev main_c_4 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_c_5 : Ref sig .tc := ⟨.hbm, 60, rfl⟩
abbrev main_v15 : Ref sig .tc := ⟨.hbm, 61, rfl⟩
abbrev main_v16 : Ref sig .tc := ⟨.hbm, 62, rfl⟩
abbrev main_c_6 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_cst_7 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_c_8 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_c : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_c_0 : Ref sig .tc := ⟨.hbm, 92, rfl⟩
abbrev main_call2_v12 : Ref sig .tc := ⟨.hbm, 93, rfl⟩
abbrev main_call2_v13 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S3x8x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x16x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x8x224x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S256x128 : S_.BroadcastsInDim S256x128 (![] : Fin 0 → Fin S256x128.rank)
  bcast_S256_S256x1_0 : S256.BroadcastsInDim S256x1 (![0] : Fin 1 → Fin S256x1.rank)
  bcast_S_S256x16x16 : S_.BroadcastsInDim S256x16x16 (![] : Fin 0 → Fin S256x16x16.rank)
  bcast_S_S256x1 : S_.BroadcastsInDim S256x1 (![] : Fin 0 → Fin S256x1.rank)
  bcast_S256x1_S256x128_0_1 : S256x1.BroadcastsInDim S256x128 (![0, 1] : Fin 2 → Fin S256x128.rank)
  bcast_S256x128_S256x128x1_0_1 : S256x128.BroadcastsInDim S256x128x1 (![0, 1] : Fin 2 → Fin S256x128x1.rank)
  concatenates_S256x128x1_S256x128x1_S256x128x1_S256x128x3_d2 : Shape.Concatenates [S256x128x1, S256x128x1, S256x128x1] S256x128x3 2
  bcast_S224_S1x224_1 : S224.BroadcastsInDim S1x224 (![1] : Fin 1 → Fin S1x224.rank)
  bcast_S_S1x224 : S_.BroadcastsInDim S1x224 (![] : Fin 0 → Fin S1x224.rank)
  bcast_S16_S16x1_0 : S16.BroadcastsInDim S16x1 (![0] : Fin 1 → Fin S16x1.rank)
  bcast_S1x224_S16x224_0_1 : S1x224.BroadcastsInDim S16x224 (![0, 1] : Fin 2 → Fin S16x224.rank)
  bcast_S16x1_S16x224_0_1 : S16x1.BroadcastsInDim S16x224 (![0, 1] : Fin 2 → Fin S16x224.rank)
  inb_S3x8x224x224_S3x8x224x224_0_0_0_0 : ∀ a, (![0, 0, 0, 0] : Fin 4 → Nat) a + S3x8x224x224.size a ≤ S3x8x224x224.size a
  h_S3x8x224x224 : 0 < S3x8x224x224.numel
  inb_S8x16x16_S8x16x16_0_0_0 : ∀ a, (![0, 0, 0] : Fin 3 → Nat) a + S8x16x16.size a ≤ S8x16x16.size a
  h_S8x16x16 : 0 < S8x16x16.numel
  shapeCasts_S8x16x16_S8x16x16 : S8x16x16.ShapeCasts S8x16x16
  inb_S16x224_S16x224_0_0 : ∀ a, (![0, 0] : Fin 2 → Nat) a + S16x224.size a ≤ S16x224.size a
  h_S16x224 : 0 < S16x224.numel
  shapeCasts_S16x224_S16x224 : S16x224.ShapeCasts S16x224
  shapeCasts_S8x16x16_S8x16x1x16 : S8x16x16.ShapeCasts S8x16x1x16
  shapeCasts_S8x16x1x16_S8x16x1x16 : S8x16x1x16.ShapeCasts S8x16x1x16
  broadcasts_S8x16x1x16_S8x16x14x16 : S8x16x1x16.Broadcasts S8x16x14x16
  shapeCasts_S8x16x14x16_S8x224x16 : S8x16x14x16.ShapeCasts S8x224x16
  bitsLt_bf16_f32 : FTy.bits .bf16 < FTy.bits .f32
  shapeCasts_S8x224x16_S1792x16 : S8x224x16.ShapeCasts S1792x16
  shapeCasts_S1792x224_S8x224x224 : S1792x224.ShapeCasts S8x224x224
  shapeCasts_S8x224x224_S1x8x224x224 : S8x224x224.ShapeCasts S1x8x224x224
  broadcasts_S1x8x224x224_S3x8x224x224 : S1x8x224x224.Broadcasts S3x8x224x224
  scatter_S256x16x16_S256x128x3_S256x128_n_012_012_2_wf : ScatterDims.WF S256x16x16 S256x128x3 S256x128 [] [0, 1, 2] [0, 1, 2] 2
  dot_S1792x16_S16x224_S1792x224_1_0_0_1_n_n_wf : DotDims.WF S1792x16 S16x224 S1792x224 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x8x224x224.size a ≤ S3x256x224x224.size a
  hwx0_0 : ∀ i : grid0.Coords, EltTy.bits .f32 = 32 ∨ (Rect.block (s := S3x256x224x224) S3x8x224x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16x16.size a ≤ S256x16x16.size a
  hwx0_1 : ∀ i : grid0.Coords, EltTy.bits .f32 = 32 ∨ (Rect.block (s := S256x16x16) S8x16x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x224.size a ≤ S16x224.size a
  hwx0_2 : ∀ i : grid0.Coords, EltTy.bits .bf16 = 32 ∨ (Rect.block (s := S16x224) S16x224.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x8x224x224.size a ≤ S3x256x224x224.size a
  hwx0_3 : ∀ i : grid0.Coords, EltTy.bits .f32 = 32 ∨ (Rect.block (s := S3x256x224x224) S3x8x224x224.size (cc0_transform_3 i) (hinb0_3 i)).WholeWords (EltTy.packing .f32)

variable [Facts₀]

def scatter_S256x16x16_S256x128x3_S256x128_n_012_012_2 : ScatterDims S256x16x16 S256x128x3 S256x128 where
  updateWindowDims := []
  insertedWindowDims := [0, 1, 2]
  scatterDimsToOperandDims := [0, 1, 2]
  indexVectorDim := 2
  wf := scatter_S256x16x16_S256x128x3_S256x128_n_012_012_2_wf
def dot_S1792x16_S16x224_S1792x224_1_0_0_1_n_n : DotDims S1792x16 S16x224 S1792x224 where
  lhsContracting := [1]
  rhsContracting := [0]
  lhsNonContracting := [0]
  rhsNonContracting := [1]
  lhsBatch := []
  rhsBatch := []
  wf := dot_S1792x16_S16x224_S1792x224_1_0_0_1_n_n_wf

abbrev win0_0 : Pipeline.Window sig grid0 :=
  Pipeline.Window.ofSpec (Memref.whole main_arg0) S3x8x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S8x16x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S16x224.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S3x8x224x224.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S3x256x224x224 : Shape := ⟨4, ![3, 256, 224, 224]⟩
abbrev S256x128 : Shape := ⟨2, ![256, 128]⟩
abbrev S_ : Shape := ⟨0, ![]⟩
abbrev S256 : Shape := ⟨1, ![256]⟩
abbrev S256x1 : Shape := ⟨2, ![256, 1]⟩
abbrev S256x16x16 : Shape := ⟨3, ![256, 16, 16]⟩
abbrev S256x128x1 : Shape := ⟨3, ![256, 128, 1]⟩
abbrev S256x128x3 : Shape := ⟨3, ![256, 128, 3]⟩
abbrev S256x16x14x16 : Shape := ⟨4, ![256, 16, 14, 16]⟩
abbrev S256x224x16 : Shape := ⟨3, ![256, 224, 16]⟩
abbrev S256x224x16x14 : Shape := ⟨4, ![256, 224, 16, 14]⟩
abbrev S256x224x224 : Shape := ⟨3, ![256, 224, 224]⟩
abbrev S1x256x224x224 : Shape := ⟨4, ![1, 256, 224, 224]⟩

abbrev nBuf : Space → Nat
  | .hbm => 82
  | .vmem => 0
  | .smem => 0
  | _ => 0

abbrev bufTy : (tb : Table) → Fin (tcTables nBuf tb) → BufTy
  | .hbm, ⟨0, _⟩ => ⟨S3x256x224x224, .f32⟩
  | .hbm, ⟨1, _⟩ => ⟨S256x128, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S256x128, .i32⟩
  | .hbm, ⟨9, _⟩ => ⟨S256x128, .i32⟩
  | .hbm, ⟨10, _⟩ => ⟨S_, .i32⟩
  | .hbm, ⟨11, _⟩ => ⟨S256x128, .i32⟩
  | .hbm, ⟨12, _⟩ => ⟨S256x128, .i1⟩
  | .hbm, ⟨13, _⟩ => ⟨S_, .i32⟩
  | .hbm, ⟨14, _⟩ => ⟨S256x128, .i32⟩
  | .hbm, ⟨15, _⟩ => ⟨S256x128, .i1⟩
  | .hbm, ⟨16, _⟩ => ⟨S_, .i32⟩
  | .hbm, ⟨17, _⟩ => ⟨S_, .i1⟩
  | .hbm, ⟨18, _⟩ => ⟨S256x128, .i1⟩
  | .hbm, ⟨19, _⟩ => ⟨S256x128, .i1⟩
  | .hbm, ⟨20, _⟩ => ⟨S256x128, .i1⟩
  | .hbm, ⟨21, _⟩ => ⟨S256x128, .i32⟩
  | .hbm, ⟨22, _⟩ => ⟨S256x128, .i32⟩
  | .hbm, ⟨23, _⟩ => ⟨S256x128, .i32⟩
  | .hbm, ⟨24, _⟩ => ⟨S_, .i32⟩
  | .hbm, ⟨25, _⟩ => ⟨S_, .i32⟩
  | .hbm, ⟨26, _⟩ => ⟨S256x128, .i32⟩
  | .hbm, ⟨27, _⟩ => ⟨S256x128, .i32⟩
  | .hbm, ⟨28, _⟩ => ⟨S256x128, .i32⟩
  | .hbm, ⟨29, _⟩ => ⟨S_, .i32⟩
  | .hbm, ⟨30, _⟩ => ⟨S256x128, .i32⟩
  | .hbm, ⟨31, _⟩ => ⟨S256x128, .i1⟩
  | .hbm, ⟨32, _⟩ => ⟨S256x128, .i32⟩
  | .hbm, ⟨33, _⟩ => ⟨S256x128, .i32⟩
  | .hbm, ⟨34, _⟩ => ⟨S_, .i32⟩
  | .hbm, ⟨35, _⟩ => ⟨S256x128, .i32⟩
  | .hbm, ⟨36, _⟩ => ⟨S256x128, .i1⟩
  | .hbm, ⟨37, _⟩ => ⟨S256x128, .i1⟩
  | .hbm, ⟨38, _⟩ => ⟨S_, .i32⟩
  | .hbm, ⟨39, _⟩ => ⟨S256x128, .i32⟩
  | .hbm, ⟨40, _⟩ => ⟨S256x128, .i32⟩
  | .hbm, ⟨41, _⟩ => ⟨S256x128, .i32⟩
  | .hbm, ⟨42, _⟩ => ⟨S256, .i32⟩
  | .hbm, ⟨43, _⟩ => ⟨S256x1, .i32⟩
  | .hbm, ⟨44, _⟩ => ⟨S_, .f32⟩
  | .hbm, ⟨45, _⟩ => ⟨S256x16x16, .f32⟩
  | .hbm, ⟨46, _⟩ => ⟨S_, .i32⟩
  | .hbm, ⟨47, _⟩ => ⟨S256x1, .i32⟩
  | .hbm, ⟨48, _⟩ => ⟨S256x1, .i1⟩
  | .hbm, ⟨49, _⟩ => ⟨S_, .i32⟩
  | .hbm, ⟨50, _⟩ => ⟨S256x1, .i32⟩
  | .hbm, ⟨51, _⟩ => ⟨S256x1, .i32⟩
  | .hbm, ⟨52, _⟩ => ⟨S256x1, .i32⟩
  | .hbm, ⟨53, _⟩ => ⟨S_, .i32⟩
  | .hbm, ⟨54, _⟩ => ⟨S256x128, .i32⟩
  | .hbm, ⟨55, _⟩ => ⟨S256x128, .i1⟩
  | .hbm, ⟨56, _⟩ => ⟨S_, .i32⟩
  | .hbm, ⟨57, _⟩ => ⟨S256x128, .i32⟩
  | .hbm, ⟨58, _⟩ => ⟨S256x128, .i32⟩
  | .hbm, ⟨59, _⟩ => ⟨S256x128, .i32⟩
  | .hbm, ⟨60, _⟩ => ⟨S_, .i32⟩
  | .hbm, ⟨61, _⟩ => ⟨S256x128, .i32⟩
  | .hbm, ⟨62, _⟩ => ⟨S256x128, .i1⟩
  | .hbm, ⟨63, _⟩ => ⟨S_, .i32⟩
  | .hbm, ⟨64, _⟩ => ⟨S256x128, .i32⟩
  | .hbm, ⟨65, _⟩ => ⟨S256x128, .i32⟩
  | .hbm, ⟨66, _⟩ => ⟨S256x128, .i32⟩
  | .hbm, ⟨67, _⟩ => ⟨S256x128, .i32⟩
  | .hbm, ⟨68, _⟩ => ⟨S256x128x1, .i32⟩
  | .hbm, ⟨69, _⟩ => ⟨S256x128x1, .i32⟩
  | .hbm, ⟨70, _⟩ => ⟨S256x128x1, .i32⟩
  | .hbm, ⟨71, _⟩ => ⟨S256x128x3, .i32⟩
  | .hbm, ⟨72, _⟩ => ⟨S_, .f32⟩
  | .hbm, ⟨73, _⟩ => ⟨S256x128, .f32⟩
  | .hbm, ⟨74, _⟩ => ⟨S256x16x16, .f32⟩
  | .hbm, ⟨75, _⟩ => ⟨S256x16x14x16, .f32⟩
  | .hbm, ⟨76, _⟩ => ⟨S256x224x16, .f32⟩
  | .hbm, ⟨77, _⟩ => ⟨S256x224x16x14, .f32⟩
  | .hbm, ⟨78, _⟩ => ⟨S256x224x224, .f32⟩
  | .hbm, ⟨79, _⟩ => ⟨S1x256x224x224, .f32⟩
  | .hbm, ⟨80, _⟩ => ⟨S3x256x224x224, .f32⟩
  | .hbm, ⟨81, _⟩ => ⟨S3x256x224x224, .f32⟩
  | _, _ => ⟨S3x256x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_v5 : Ref sig .tc := ⟨.hbm, 11, rfl⟩
abbrev main_call0_v6 : Ref sig .tc := ⟨.hbm, 12, rfl⟩
abbrev main_call0_c_2 : Ref sig .tc := ⟨.hbm, 13, rfl⟩
abbrev main_call0_v7 : Ref sig .tc := ⟨.hbm, 14, rfl⟩
abbrev main_call0_v8 : Ref sig .tc := ⟨.hbm, 15, rfl⟩
abbrev main_call0_c_3 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_v0 : Ref sig .tc := ⟨.hbm, 23, rfl⟩
abbrev main_c_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_cst : Ref sig .tc := ⟨.hbm, 44, rfl⟩
abbrev main_v4 : Ref sig .tc := ⟨.hbm, 45, rfl⟩
abbrev main_c_1 : Ref sig .tc := ⟨.hbm, 46, rfl⟩
abbrev main_v5 : Ref sig .tc := ⟨.hbm, 47, rfl⟩
abbrev main_v6 : Ref sig .tc := ⟨.hbm, 48, rfl⟩
abbrev main_c_2 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_c_3 : Ref sig .tc := ⟨.hbm, 53, rfl⟩
abbrev main_v10 : Ref sig .tc := ⟨.hbm, 54, rfl⟩
abbrev main_v11 : Ref sig .tc := ⟨.hbm, 55, rfl⟩
abbrev main_c_4 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_c_5 : Ref sig .tc := ⟨.hbm, 60, rfl⟩
abbrev main_v15 : Ref sig .tc := ⟨.hbm, 61, rfl⟩
abbrev main_v16 : Ref sig .tc := ⟨.hbm, 62, rfl⟩
abbrev main_c_6 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_cst_7 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩

abbrev nD : Nat := 1
abbrev τ : Topo := Topo.v7x

variable {F : FTy → Type} [FloatOps F]

class Facts₀ : Prop where
  bcast_S_S256x128 : S_.BroadcastsInDim S256x128 (![] : Fin 0 → Fin S256x128.rank)
  bcast_S256_S256x1_0 : S256.BroadcastsInDim S256x1 (![0] : Fin 1 → Fin S256x1.rank)
  bcast_S_S256x16x16 : S_.BroadcastsInDim S256x16x16 (![] : Fin 0 → Fin S256x16x16.rank)
  bcast_S_S256x1 : S_.BroadcastsInDim S256x1 (![] : Fin 0 → Fin S256x1.rank)
  bcast_S256x1_S256x128_0_1 : S256x1.BroadcastsInDim S256x128 (![0, 1] : Fin 2 → Fin S256x128.rank)
  bcast_S256x128_S256x128x1_0_1 : S256x128.BroadcastsInDim S256x128x1 (![0, 1] : Fin 2 → Fin S256x128x1.rank)
  concatenates_S256x128x1_S256x128x1_S256x128x1_S256x128x3_d2 : Shape.Concatenates [S256x128x1, S256x128x1, S256x128x1] S256x128x3 2
  bcast_S256x16x16_S256x16x14x16_0_1_3 : S256x16x16.BroadcastsInDim S256x16x14x16 (![0, 1, 3] : Fin 3 → Fin S256x16x14x16.rank)
  shapeCasts_S256x16x14x16_S256x224x16 : S256x16x14x16.ShapeCasts S256x224x16
  bcast_S256x224x16_S256x224x16x14_0_1_2 : S256x224x16.BroadcastsInDim S256x224x16x14 (![0, 1, 2] : Fin 3 → Fin S256x224x16x14.rank)
  shapeCasts_S256x224x16x14_S256x224x224 : S256x224x16x14.ShapeCasts S256x224x224
  bcast_S256x224x224_S1x256x224x224_1_2_3 : S256x224x224.BroadcastsInDim S1x256x224x224 (![1, 2, 3] : Fin 3 → Fin S1x256x224x224.rank)
  bcast_S1x256x224x224_S3x256x224x224_0_1_2_3 : S1x256x224x224.BroadcastsInDim S3x256x224x224 (![0, 1, 2, 3] : Fin 4 → Fin S3x256x224x224.rank)
  scatter_S256x16x16_S256x128x3_S256x128_n_012_012_2_wf : ScatterDims.WF S256x16x16 S256x128x3 S256x128 [] [0, 1, 2] [0, 1, 2] 2

variable [Facts₀]

def scatter_S256x16x16_S256x128x3_S256x128_n_012_012_2 : ScatterDims S256x16x16 S256x128x3 S256x128 where
  updateWindowDims := []
  insertedWindowDims := [0, 1, 2]
  scatterDimsToOperandDims := [0, 1, 2]
  indexVectorDim := 2
  wf := scatter_S256x16x16_S256x128x3_S256x128_n_012_012_2_wf

class Facts : Prop extends Facts₀ where

variable [Facts]
-- ==== Proof.FrameK.lean ====
/-
  The frame of `Kernel`: every weakly fair execution of @main terminates without a fault and leaves both argument arrays
  as they were — together with what the result array holds at the end, block by block.

  @main is seven stretches of host operations (the index arithmetic, the scatter that builds the 256 x 16 x 16 patch
  mask, the 16 x 224 column-expansion matrix) followed by one pipelined region over 32 grid points. At point t the
  region hands the body frames 8t … 8t+7 (all channels, all pixels), the mask rows of those 8 frames, the whole
  expansion matrix, and an output buffer of the frames' shape; the body loads the three inputs whole, computes one
  value, and stores it over the whole output buffer. No host operation writes an argument array, the region only reads
  its three input arrays, and the output blocks tile the result array. So the proof data is: every input's staging
  buffer holds that input's block at each point, the output's holds the body's value of the three input blocks.
-/
import proofs.«147172_j74818330296837_2_alg».proof.Proof.Gen.Kernel.Launch
import proofs.«147172_j74818330296837_2_alg».proof.Proof.Gen.Kernel.Skeleton
import proofs.«147172_j74818330296837_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the seven stretches of host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- @main is those stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation writes the frames: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation writes the index array. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (the expansion
    matrix is fetched once: its block index never moves). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run that names the arrays -/

/-- The frames are a staged input: at the end they are what the region found, which is the launch contents. The index
    array is staged by no window: the region does not touch it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-! ## The body's accesses: each buffer whole -/

abbrev r0_0 : Rect S3x8x224x224 := Rect.unit (s := S3x8x224x224) ![0, 0, 0, 0] S3x8x224x224.size inb_S3x8x224x224_S3x8x224x224_0_0_0_0
abbrev r0_1 : Rect S8x16x16 := Rect.unit (s := S8x16x16) ![0, 0, 0] S8x16x16.size inb_S8x16x16_S8x16x16_0_0_0
abbrev r0_2 : Rect S16x224 := Rect.unit (s := S16x224) ![0, 0] S16x224.size inb_S16x224_S16x224_0_0

/-- The output buffer after the body: its one store, the body's value of the three loads. -/
def out0_3 (x0 : Vec F S3x8x224x224 .f32) (x1 : Vec F S8x16x16 .f32) (x2 : Vec F S16x224 .bf16) : Vec F S3x8x224x224 .f32 :=
  View.canon [⟨r0_0, k0_pay1 (View.ld x0 r0_0) (View.ld x1 r0_1) (View.ld x2 r0_2)⟩]

/-- The one store covers the buffer. -/
theorem cover0_3 (p0 : Vec F S3x8x224x224 .f32) (y : S3x8x224x224.Idx) :
    ∃ pc ∈ ([⟨r0_0, p0⟩] : List (View.Piece (Elt F) S3x8x224x224 .f32)), y ∈ pc.1.set :=
  View.cover_of_tiled [⟨r0_0, p0⟩] S3x8x224x224.size (by rfl) y

/-! ## The body's triple -/

set_option maxHeartbeats 1000000 in
/-- The body on whole staging buffers, the inputs' at read contents and the output's at anything, leaves the inputs as
    they were and the output at `out0_3` of the inputs. -/
theorem sound_kernel (c : Dev nD) (E : Set ℕ) (i : grid0.Coords) (arg1 : Memref sig .tc .vmem S3x8x224x224 .f32) (harg1 : arg1.IsWhole)
    (arg2 : Memref sig .tc .vmem S8x16x16 .f32) (harg2 : arg2.IsWhole) (arg3 : Memref sig .tc .vmem S16x224 .bf16) (harg3 : arg3.IsWhole)
    (arg4 : Memref sig .tc .vmem S3x8x224x224 .f32) (harg4 : arg4.IsWhole)
    (x0 : Vec F S3x8x224x224 .f32) (x1 : Vec F S8x16x16 .f32) (x2 : Vec F S16x224 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__mask_mul_kernel i arg1 harg1 arg2 harg2 arg3 harg3 arg4 harg4) K := by
  simp only [cc0__mask_mul_kernel_eq_skeleton]; unfold cc0__mask_mul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the region finds them; after the body at point `t` each input's buffer at its block and the output's
    at `out0_3` of the three input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and at the end every array of the pipeline is what the proof data
    says and every other unscoped buffer is as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.FrameKI.lean ====
/-
  The frame of `KernelIdeal`: every weakly fair execution of @main terminates without a fault and leaves both argument arrays
  as they were — together with what the result array holds at the end, block by block.

  @main is seven stretches of host operations (the index arithmetic, the scatter that builds the 256 x 16 x 16 patch
  mask, the 16 x 224 column-expansion matrix) followed by one pipelined region over 32 grid points. At point t the
  region hands the body frames 8t … 8t+7 (all channels, all pixels), the mask rows of those 8 frames, the whole
  expansion matrix, and an output buffer of the frames' shape; the body loads the three inputs whole, computes one
  value, and stores it over the whole output buffer. No host operation writes an argument array, the region only reads
  its three input arrays, and the output blocks tile the result array. So the proof data is: every input's staging
  buffer holds that input's block at each point, the output's holds the body's value of the three input blocks.
-/
import proofs.«147172_j74818330296837_2_alg».proof.Proof.Gen.KernelIdeal.Launch
import proofs.«147172_j74818330296837_2_alg».proof.Proof.Gen.KernelIdeal.Skeleton
import proofs.«147172_j74818330296837_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the seven stretches of host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- @main is those stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation writes the frames: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation writes the index array. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (the expansion
    matrix is fetched once: its block index never moves). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run that names the arrays -/

/-- The frames are a staged input: at the end they are what the region found, which is the launch contents. The index
    array is staged by no window: the region does not touch it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-! ## The body's accesses: each buffer whole -/

abbrev r0_0 : Rect S3x8x224x224 := Rect.unit (s := S3x8x224x224) ![0, 0, 0, 0] S3x8x224x224.size inb_S3x8x224x224_S3x8x224x224_0_0_0_0
abbrev r0_1 : Rect S8x16x16 := Rect.unit (s := S8x16x16) ![0, 0, 0] S8x16x16.size inb_S8x16x16_S8x16x16_0_0_0
abbrev r0_2 : Rect S16x224 := Rect.unit (s := S16x224) ![0, 0] S16x224.size inb_S16x224_S16x224_0_0

/-- The output buffer after the body: its one store, the body's value of the three loads. -/
def out0_3 (x0 : Vec F S3x8x224x224 .f32) (x1 : Vec F S8x16x16 .f32) (x2 : Vec F S16x224 .bf16) : Vec F S3x8x224x224 .f32 :=
  View.canon [⟨r0_0, k0_pay1 (View.ld x0 r0_0) (View.ld x1 r0_1) (View.ld x2 r0_2)⟩]

/-- The one store covers the buffer. -/
theorem cover0_3 (p0 : Vec F S3x8x224x224 .f32) (y : S3x8x224x224.Idx) :
    ∃ pc ∈ ([⟨r0_0, p0⟩] : List (View.Piece (Elt F) S3x8x224x224 .f32)), y ∈ pc.1.set :=
  View.cover_of_tiled [⟨r0_0, p0⟩] S3x8x224x224.size (by rfl) y

/-! ## The body's triple -/

set_option maxHeartbeats 1000000 in
/-- The body on whole staging buffers, the inputs' at read contents and the output's at anything, leaves the inputs as
    they were and the output at `out0_3` of the inputs. -/
theorem sound_kernel (c : Dev nD) (E : Set ℕ) (i : grid0.Coords) (arg1 : Memref sig .tc .vmem S3x8x224x224 .f32) (harg1 : arg1.IsWhole)
    (arg2 : Memref sig .tc .vmem S8x16x16 .f32) (harg2 : arg2.IsWhole) (arg3 : Memref sig .tc .vmem S16x224 .bf16) (harg3 : arg3.IsWhole)
    (arg4 : Memref sig .tc .vmem S3x8x224x224 .f32) (harg4 : arg4.IsWhole)
    (x0 : Vec F S3x8x224x224 .f32) (x1 : Vec F S8x16x16 .f32) (x2 : Vec F S16x224 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__mask_mul_kernel i arg1 harg1 arg2 harg2 arg3 harg3 arg4 harg4) K := by
  simp only [cc0__mask_mul_kernel_eq_skeleton]; unfold cc0__mask_mul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the region finds them; after the body at point `t` each input's buffer at its block and the output's
    at `out0_3` of the three input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and at the end every array of the pipeline is what the proof data
    says and every other unscoped buffer is as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.Terms.lean ====
/-
  The arrays the two programs compute before their last step, as pure functions of the arguments.

  Both programs build the same patch-grid mask from the index array: for frame t and each of its 128 listed patch
  numbers n, the entry (t, n mod 16, n div 16) of a 256 x 16 x 16 array of ones is set to zero (jnp's remainder and
  floor division, a negative coordinate wrapped once, the three coordinates joined into one index vector, a scatter
  that overwrites). `maskOf` is that computation, operation by operation.

  The reference then repeats every mask entry 14 times along each of the two patch axes (`expand`: broadcast a new axis
  of extent 14 and merge it into its neighbour, twice) and over the three channels, and multiplies the frames by it
  (`result`).

  The kernel instead is handed the mask itself and the 16 x 224 matrix `onehot`, whose entry (q, w) says whether pixel
  column w lies in patch column q (w div 14 = q), as 0 or 1.
-/
import proofs.«147172_j74818330296837_2_alg».proof.KernelIdeal
import proofs.«147172_j74818330296837_2_alg».proof.ReferenceIdeal

noncomputable section

namespace Cert.MaskMul

open Idealize.ShloMosaic

/-- The patch (of 16) that pixel row or column `i` (of 224) lies in: patches are 14 pixels wide. -/
def patch (i : Fin 224) : Fin 16 := ⟨i.val / 14, by have := i.isLt; omega⟩

theorem patch_val (i : Fin 224) : (patch i).val = i.val / 14 := rfl

section Reference

open Cert.ReferenceIdeal Cert.ReferenceIdeal.Facts₀

variable {F : FTy → Type} [FloatOps F] [Cert.ReferenceIdeal.Facts]

/-- `jnp.remainder(a1, 16)`: the truncating remainder, moved by 16 when it is nonzero and its sign differs from the
    divisor's. -/
def remTerm (a1 : IVec S256x128 32) : IVec S256x128 32 :=
  let c : IVec S_ 32 := constantI S_ 32 16#32
  let v0 : IVec S_ 32 := id c
  let c0 : IVec S_ 32 := constantI S_ 32 0#32
  let v1 : IVec S_ 1 := cmpi .eq v0 c0
  let c_0 : IVec S_ 32 := constantI S_ 32 1#32
  let v2 : IVec S_ 32 := select v1 c_0 v0
  let v3 : IVec S256x128 32 := broadcastInDim S256x128 ![] bcast_S_S256x128 v2
  let v4 : IVec S256x128 32 := Host.remsi a1 v3
  let c_1 : IVec S_ 32 := constantI S_ 32 0#32
  let v5 : IVec S256x128 32 := broadcastInDim S256x128 ![] bcast_S_S256x128 c_1
  let v6 : IVec S256x128 1 := cmpi .ne v4 v5
  let c_2 : IVec S_ 32 := constantI S_ 32 0#32
  let v7 : IVec S256x128 32 := broadcastInDim S256x128 ![] bcast_S_S256x128 c_2
  let v8 : IVec S256x128 1 := cmpi .slt v4 v7
  let c_3 : IVec S_ 32 := constantI S_ 32 0#32
  let v9 : IVec S_ 1 := cmpi .slt v2 c_3
  let v10 : IVec S256x128 1 := broadcastInDim S256x128 ![] bcast_S_S256x128 v9
  let v11 : IVec S256x128 1 := cmpi .ne v8 v10
  let v12 : IVec S256x128 1 := andi v11 v6
  let v13 : IVec S256x128 32 := broadcastInDim S256x128 ![] bcast_S_S256x128 v2
  let v14 : IVec S256x128 32 := addi v4 v13
  select v12 v14 v4

/-- `a1 // 16` (jnp's floor division): the truncating quotient, less one when the signs differ and the remainder is
    nonzero. -/
def fdivTerm (a1 : IVec S256x128 32) : IVec S256x128 32 :=
  let c_0 : IVec S_ 32 := constantI S_ 32 16#32
  let v0 : IVec S_ 32 := id c_0
  let v1 : IVec S256x128 32 := broadcastInDim S256x128 ![] bcast_S_S256x128 v0
  let v2 : IVec S256x128 32 := Host.divsi a1 v1
  let v3 : IVec S256x128 32 := signi a1
  let v4 : IVec S_ 32 := signi v0
  let v5 : IVec S256x128 32 := broadcastInDim S256x128 ![] bcast_S_S256x128 v4
  let v6 : IVec S256x128 1 := cmpi .ne v3 v5
  let v7 : IVec S256x128 32 := broadcastInDim S256x128 ![] bcast_S_S256x128 v0
  let v8 : IVec S256x128 32 := Host.remsi a1 v7
  let c : IVec S_ 32 := constantI S_ 32 0#32
  let v9 : IVec S256x128 32 := broadcastInDim S256x128 ![] bcast_S_S256x128 c
  let v10 : IVec S256x128 1 := cmpi .ne v8 v9
  let v11 : IVec S256x128 1 := andi v6 v10
  let c_1 : IVec S_ 32 := constantI S_ 32 1#32
  let v12 : IVec S256x128 32 := broadcastInDim S256x128 ![] bcast_S_S256x128 c_1
  let v13 : IVec S256x128 32 := subi v2 v12
  select v11 v13 v2

/-- The frame-number coordinate of every index vector: t at (t, j), a negative number wrapped by 256 (never the case
    for 0 … 255, but the program asks). -/
def idxT : IVec S256x128x1 32 :=
  let v2 : IVec S256 32 := iotaInDim S256 32 0
  let v3 : IVec S256x1 32 := broadcastInDim S256x1 ![0] bcast_S256_S256x1_0 v2
  let c_1 : IVec S_ 32 := constantI S_ 32 0#32
  let v5 : IVec S256x1 32 := broadcastInDim S256x1 ![] bcast_S_S256x1 c_1
  let v6 : IVec S256x1 1 := cmpi .slt v3 v5
  let c_2 : IVec S_ 32 := constantI S_ 32 256#32
  let v7 : IVec S256x1 32 := broadcastInDim S256x1 ![] bcast_S_S256x1 c_2
  let v8 : IVec S256x1 32 := addi v3 v7
  let v9 : IVec S256x1 32 := select v6 v8 v3
  let v20 : IVec S256x128 32 := broadcastInDim S256x128 ![0, 1] bcast_S256x1_S256x128_0_1 v9
  broadcastInDim S256x128x1 ![0, 1] bcast_S256x128_S256x128x1_0_1 v20

/-- The patch-row coordinate: n mod 16, a negative value wrapped by 16. -/
def idxH (a1 : IVec S256x128 32) : IVec S256x128x1 32 :=
  let v0 : IVec S256x128 32 := remTerm a1
  let c_3 : IVec S_ 32 := constantI S_ 32 0#32
  let v10 : IVec S256x128 32 := broadcastInDim S256x128 ![] bcast_S_S256x128 c_3
  let v11 : IVec S256x128 1 := cmpi .slt v0 v10
  let c_4 : IVec S_ 32 := constantI S_ 32 16#32
  let v12 : IVec S256x128 32 := broadcastInDim S256x128 ![] bcast_S_S256x128 c_4
  let v13 : IVec S256x128 32 := addi v0 v12
  let v14 : IVec S256x128 32 := select v11 v13 v0
  broadcastInDim S256x128x1 ![0, 1] bcast_S256x128_S256x128x1_0_1 v14

/-- The patch-column coordinate: n div 16, a negative value wrapped by 16. -/
def idxW (a1 : IVec S256x128 32) : IVec S256x128x1 32 :=
  let v1 : IVec S256x128 32 := fdivTerm a1
  let c_5 : IVec S_ 32 := constantI S_ 32 0#32
  let v15 : IVec S256x128 32 := broadcastInDim S256x128 ![] bcast_S_S256x128 c_5
  let v16 : IVec S256x128 1 := cmpi .slt v1 v15
  let c_6 : IVec S_ 32 := constantI S_ 32 16#32
  let v17 : IVec S256x128 32 := broadcastInDim S256x128 ![] bcast_S_S256x128 c_6
  let v18 : IVec S256x128 32 := addi v1 v17
  let v19 : IVec S256x128 32 := select v16 v18 v1
  broadcastInDim S256x128x1 ![0, 1] bcast_S256x128_S256x128x1_0_1 v19

/-- The all-ones patch grid the scatter starts from. -/
def ones : FVec F S256x16x16 .f32 :=
  let cst : FVec F S_ .f32 := constant S_ .f32 0x3F800000#32
  broadcastInDim S256x16x16 ![] bcast_S_S256x16x16 cst

/-- The patch-grid mask: ones, with entry (t, n mod 16, n div 16) overwritten by zero for every patch number n listed
    for frame t — the three coordinates joined into one index vector, then a scatter that overwrites. -/
def maskOf (a1 : IVec S256x128 32) : FVec F S256x16x16 .f32 :=
  let v24 : IVec S256x128x3 32 := concatenate S256x128x3 2 [⟨S256x128x1, idxT⟩, ⟨S256x128x1, idxH a1⟩, ⟨S256x128x1, idxW a1⟩] concatenates_S256x128x1_S256x128x1_S256x128x1_S256x128x3_d2
  let cst_7 : FVec F S_ .f32 := constant S_ .f32 0x00000000#32
  let v25 : FVec F S256x128 .f32 := broadcastInDim S256x128 ![] bcast_S_S256x128 cst_7
  Host.scatter scatter_S256x16x16_S256x128x3_S256x128_n_012_012_2 (fun _ b => b) (ones (F := F)) v24 v25

/-- Every mask entry repeated 14 times along each patch axis, and over the three channels. -/
def expand (M : FVec F S256x16x16 .f32) : FVec F S3x256x224x224 .f32 :=
  let v27 : FVec F S256x16x14x16 .f32 := broadcastInDim S256x16x14x16 ![0, 1, 3] bcast_S256x16x16_S256x16x14x16_0_1_3 M
  let v28 : FVec F S256x224x16 .f32 := shapeCast S256x224x16 v27 shapeCasts_S256x16x14x16_S256x224x16
  let v29 : FVec F S256x224x16x14 .f32 := broadcastInDim S256x224x16x14 ![0, 1, 2] bcast_S256x224x16_S256x224x16x14_0_1_2 v28
  let v30 : FVec F S256x224x224 .f32 := shapeCast S256x224x224 v29 shapeCasts_S256x224x16x14_S256x224x224
  let v31 : FVec F S1x256x224x224 .f32 := broadcastInDim S1x256x224x224 ![1, 2, 3] bcast_S256x224x224_S1x256x224x224_1_2_3 v30
  broadcastInDim S3x256x224x224 ![0, 1, 2, 3] bcast_S1x256x224x224_S3x256x224x224_0_1_2_3 v31

/-- What the reference returns: the frames times the expanded mask. -/
def result (a0 : FVec F S3x256x224x224 .f32) (a1 : IVec S256x128 32) : FVec F S3x256x224x224 .f32 :=
  mulf a0 (expand (maskOf a1))

end Reference

section Kernel

open Cert.KernelIdeal Cert.KernelIdeal.Facts₀

variable {F : FTy → Type} [FloatOps F] [Cert.KernelIdeal.Facts]

/-- The kernel's column-expansion matrix: entry (q, w) is the comparison `w // 14 == q` as a bf16 number. -/
def onehot : FVec F S16x224 .bf16 :=
  let v27 : IVec S224 32 := iotaInDim S224 32 0
  let v28 : IVec S16 32 := iotaInDim S16 32 0
  let v29 : IVec S1x224 32 := broadcastInDim S1x224 ![1] bcast_S224_S1x224_1 v27
  let c_8 : IVec S_ 32 := constantI S_ 32 14#32
  let d0 : IVec S_ 32 := id c_8
  let d1 : IVec S1x224 32 := broadcastInDim S1x224 ![] bcast_S_S1x224 d0
  let d2 : IVec S1x224 32 := Host.divsi v29 d1
  let d3 : IVec S1x224 32 := signi v29
  let d4 : IVec S_ 32 := signi d0
  let d5 : IVec S1x224 32 := broadcastInDim S1x224 ![] bcast_S_S1x224 d4
  let d6 : IVec S1x224 1 := cmpi .ne d3 d5
  let d7 : IVec S1x224 32 := broadcastInDim S1x224 ![] bcast_S_S1x224 d0
  let d8 : IVec S1x224 32 := Host.remsi v29 d7
  let dc : IVec S_ 32 := constantI S_ 32 0#32
  let d9 : IVec S1x224 32 := broadcastInDim S1x224 ![] bcast_S_S1x224 dc
  let d10 : IVec S1x224 1 := cmpi .ne d8 d9
  let d11 : IVec S1x224 1 := andi d6 d10
  let dc0 : IVec S_ 32 := constantI S_ 32 1#32
  let d12 : IVec S1x224 32 := broadcastInDim S1x224 ![] bcast_S_S1x224 dc0
  let d13 : IVec S1x224 32 := subi d2 d12
  let v30 : IVec S1x224 32 := select d11 d13 d2
  let v31 : IVec S16x1 32 := broadcastInDim S16x1 ![0] bcast_S16_S16x1_0 v28
  let v32 : IVec S16x224 32 := broadcastInDim S16x224 ![0, 1] bcast_S1x224_S16x224_0_1 v30
  let v33 : IVec S16x224 32 := broadcastInDim S16x224 ![0, 1] bcast_S16x1_S16x224_0_1 v31
  let v34 : IVec S16x224 1 := cmpi .eq v32 v33
  uitofp .bf16 v34

end Kernel

end Cert.MaskMul

end
-- ==== Proof.LibAfterAppend.lean ====
/-
  The contents after two lines of host operations run one after the other are the second line's contents over the
  first line's: the fold over a concatenated list is the composition of the folds. General: nothing here depends on a
  program.
-/
import Idealize.ShloMosaic.Lib.StableHlo.Run

namespace Cert.LibAfterAppend

open Idealize.ShloMosaic Idealize.ShloMosaic.StableHlo

variable {τ : Topo} {sig : RefSig} {Val : EltTy → Type}

/-- Running `l₁` then `l₂` from contents `V` is running `l₂` from what `l₁` leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfterAppend
-- ==== Proof.KHost.lean ====
/-
  What the region finds in the two buffers the host operations prepare for it: the patch mask and the column-expansion
  matrix, each as one pure function — the mask of the index array, the matrix of nothing at all.

  The contents of a buffer after a line of host operations are a fold: each operation overwrites its own result buffer
  with its function of its operands' contents. Reading the fold at a buffer walks back through the operations that feed
  it, and what is left is their composition. The line is read in two parts, cut where the three coordinate arrays
  (frame number, patch row, patch column) are joined into one array of index vectors: before the cut each coordinate
  array and the all-ones grid is a composition of elementwise operations of the index array; after it the mask is the
  scatter of zeros into the ones at the joined index vectors. The expansion matrix depends on no argument and is read in
  one go.
-/
import proofs.«147172_j74818330296837_2_alg».proof.Proof.FrameKI
import proofs.«147172_j74818330296837_2_alg».proof.Proof.Terms
import proofs.«147172_j74818330296837_2_alg».proof.Proof.LibAfterAppend
import proofs.«147172_j74818330296837_2_alg».proof.Proof.Gen.ReferenceIdeal

set_option maxRecDepth 16384

noncomputable section

namespace Cert.KernelIdeal.Hand

open Cert.KernelIdeal Cert.KernelIdeal.Gen
open Idealize.ShloMosaic Idealize.ShloMosaic.TcCoe Idealize.ShloMosaic.StableHlo Idealize.SL.Sem

variable {F : FTy → Type} [FloatOps F]

/-! ## The fifth stretch of host operations, cut where the coordinates are joined -/

/-- Its operations up to the three coordinate arrays. -/
abbrev pre4 : List (HloOp τ sig (Elt F)) :=
  ( StableHlo.nullary main_v2 (iotaInDim S256 32 0)
  :: StableHlo.unary main_v2 main_v3 (broadcastInDim S256x1 ![0] bcast_S256_S256x1_0 : (⟨S256, .i32⟩ : BufTy).Contents (Elt F) → (⟨S256x1, .i32⟩ : BufTy).Contents (Elt F))
  :: StableHlo.nullary main_cst (constant S_ .f32 0x3F800000#32)
  :: StableHlo.unary main_cst main_v4 (broadcastInDim S256x16x16 ![] bcast_S_S256x16x16 : (⟨S_, .f32⟩ : BufTy).Contents (Elt F) → (⟨S256x16x16, .f32⟩ : BufTy).Contents (Elt F))
  :: StableHlo.nullary main_c_1 (constantI S_ 32 0#32)
  :: StableHlo.unary main_c_1 main_v5 (broadcastInDim S256x1 ![] bcast_S_S256x1 : (⟨S_, .i32⟩ : BufTy).Contents (Elt F) → (⟨S256x1, .i32⟩ : BufTy).Contents (Elt F))
  :: StableHlo.binary main_v3 main_v5 main_v6 (cmpi .slt : (⟨S256x1, .i32⟩ : BufTy).Contents (Elt F) → (⟨S256x1, .i32⟩ : BufTy).Contents (Elt F) → (⟨S256x1, .i1⟩ : BufTy).Contents (Elt F))
  :: StableHlo.nullary main_c_2 (constantI S_ 32 256#32)
  :: StableHlo.unary main_c_2 main_v7 (broadcastInDim S256x1 ![] bcast_S_S256x1 : (⟨S_, .i32⟩ : BufTy).Contents (Elt F) → (⟨S256x1, .i32⟩ : BufTy).Contents (Elt F))
  :: StableHlo.binary main_v3 main_v7 main_v8 (addi : (⟨S256x1, .i32⟩ : BufTy).Contents (Elt F) → (⟨S256x1, .i32⟩ : BufTy).Contents (Elt F) → (⟨S256x1, .i32⟩ : BufTy).Contents (Elt F))
  :: StableHlo.ternary main_v6 main_v8 main_v3 main_v9 (select : (⟨S256x1, .i1⟩ : BufTy).Contents (Elt F) → (⟨S256x1, .i32⟩ : BufTy).Contents (Elt F) → (⟨S256x1, .i32⟩ : BufTy).Contents (Elt F) → (⟨S256x1, .i32⟩ : BufTy).Contents (Elt F))
  :: StableHlo.nullary main_c_3 (constantI S_ 32 0#32)
  :: StableHlo.unary main_c_3 main_v10 (broadcastInDim S256x128 ![] bcast_S_S256x128 : (⟨S_, .i32⟩ : BufTy).Contents (Elt F) → (⟨S256x128, .i32⟩ : BufTy).Contents (Elt F))
  :: StableHlo.binary main_v0 main_v10 main_v11 (cmpi .slt : (⟨S256x128, .i32⟩ : BufTy).Contents (Elt F) → (⟨S256x128, .i32⟩ : BufTy).Contents (Elt F) → (⟨S256x128, .i1⟩ : BufTy).Contents (Elt F))
  :: StableHlo.nullary main_c_4 (constantI S_ 32 16#32)
  :: StableHlo.unary main_c_4 main_v12 (broadcastInDim S256x128 ![] bcast_S_S256x128 : (⟨S_, .i32⟩ : BufTy).Contents (Elt F) → (⟨S256x128, .i32⟩ : BufTy).Contents (Elt F))
  :: StableHlo.binary main_v0 main_v12 main_v13 (addi : (⟨S256x128, .i32⟩ : BufTy).Contents (Elt F) → (⟨S256x128, .i32⟩ : BufTy).Contents (Elt F) → (⟨S256x128, .i32⟩ : BufTy).Contents (Elt F))
  :: StableHlo.ternary main_v11 main_v13 main_v0 main_v14 (select : (⟨S256x128, .i1⟩ : BufTy).Contents (Elt F) → (⟨S256x128, .i32⟩ : BufTy).Contents (Elt F) → (⟨S256x128, .i32⟩ : BufTy).Contents (Elt F) → (⟨S256x128, .i32⟩ : BufTy).Contents (Elt F))
  :: StableHlo.nullary main_c_5 (constantI S_ 32 0#32)
  :: StableHlo.unary main_c_5 main_v15 (broadcastInDim S256x128 ![] bcast_S_S256x128 : (⟨S_, .i32⟩ : BufTy).Contents (Elt F) → (⟨S256x128, .i32⟩ : BufTy).Contents (Elt F))
  :: StableHlo.binary main_v1 main_v15 main_v16 (cmpi .slt : (⟨S256x128, .i32⟩ : BufTy).Contents (Elt F) → (⟨S256x128, .i32⟩ : BufTy).Contents (Elt F) → (⟨S256x128, .i1⟩ : BufTy).Contents (Elt F))
  :: StableHlo.nullary main_c_6 (constantI S_ 32 16#32)
  :: StableHlo.unary main_c_6 main_v17 (broadcastInDim S256x128 ![] bcast_S_S256x128 : (⟨S_, .i32⟩ : BufTy).Contents (Elt F) → (⟨S256x128, .i32⟩ : BufTy).Contents (Elt F))
  :: StableHlo.binary main_v1 main_v17 main_v18 (addi : (⟨S256x128, .i32⟩ : BufTy).Contents (Elt F) → (⟨S256x128, .i32⟩ : BufTy).Contents (Elt F) → (⟨S256x128, .i32⟩ : BufTy).Contents (Elt F))
  :: StableHlo.ternary main_v16 main_v18 main_v1 main_v19 (select : (⟨S256x128, .i1⟩ : BufTy).Contents (Elt F) → (⟨S256x128, .i32⟩ : BufTy).Contents (Elt F) → (⟨S256x128, .i32⟩ : BufTy).Contents (Elt F) → (⟨S256x128, .i32⟩ : BufTy).Contents (Elt F))
  :: StableHlo.unary main_v9 main_v20 (broadcastInDim S256x128 ![0, 1] bcast_S256x1_S256x128_0_1 : (⟨S256x1, .i32⟩ : BufTy).Contents (Elt F) → (⟨S256x128, .i32⟩ : BufTy).Contents (Elt F))
  :: StableHlo.unary main_v20 main_v21 (broadcastInDim S256x128x1 ![0, 1] bcast_S256x128_S256x128x1_0_1 : (⟨S256x128, .i32⟩ : BufTy).Contents (Elt F) → (⟨S256x128x1, .i32⟩ : BufTy).Contents (Elt F))
  :: StableHlo.unary main_v14 main_v22 (broadcastInDim S256x128x1 ![0, 1] bcast_S256x128_S256x128x1_0_1 : (⟨S256x128, .i32⟩ : BufTy).Contents (Elt F) → (⟨S256x128x1, .i32⟩ : BufTy).Contents (Elt F))
  :: StableHlo.unary main_v19 main_v23 (broadcastInDim S256x128x1 ![0, 1] bcast_S256x128_S256x128x1_0_1 : (⟨S256x128, .i32⟩ : BufTy).Contents (Elt F) → (⟨S256x128x1, .i32⟩ : BufTy).Contents (Elt F))
  :: [] )

/-- The join, the zeros, the scatter, and the first operations of the expansion matrix. -/
abbrev post4 : List (HloOp τ sig (Elt F)) :=
  ( StableHlo.nary ![main_v21, main_v22, main_v23] main_v24 (fun u => concatenate S256x128x3 2 [⟨S256x128x1, u 0⟩, ⟨S256x128x1, u 1⟩, ⟨S256x128x1, u 2⟩] concatenates_S256x128x1_S256x128x1_S256x128x1_S256x128x3_d2)
  :: StableHlo.nullary main_cst_7 (constant S_ .f32 0x00000000#32)
  :: StableHlo.unary main_cst_7 main_v25 (broadcastInDim S256x128 ![] bcast_S_S256x128 : (⟨S_, .f32⟩ : BufTy).Contents (Elt F) → (⟨S256x128, .f32⟩ : BufTy).Contents (Elt F))
  :: StableHlo.ternary main_v4 main_v24 main_v25 main_v26 ((fun x i u => Host.scatter scatter_S256x16x16_S256x128x3_S256x128_n_012_012_2 (fun _ b => b) x i u) : (⟨S256x16x16, .f32⟩ : BufTy).Contents (Elt F) → (⟨S256x128x3, .i32⟩ : BufTy).Contents (Elt F) → (⟨S256x128, .f32⟩ : BufTy).Contents (Elt F) → (⟨S256x16x16, .f32⟩ : BufTy).Contents (Elt F))
  :: StableHlo.nullary main_v27 (iotaInDim S224 32 0)
  :: StableHlo.nullary main_v28 (iotaInDim S16 32 0)
  :: StableHlo.unary main_v27 main_v29 (broadcastInDim S1x224 ![1] bcast_S224_S1x224_1 : (⟨S224, .i32⟩ : BufTy).Contents (Elt F) → (⟨S1x224, .i32⟩ : BufTy).Contents (Elt F))
  :: StableHlo.nullary main_c_8 (constantI S_ 32 14#32)
  :: [] )

theorem hostOps0_4_split : (hostOps0_4 : List (HloOp τ sig (Elt F))) = pre4 ++ post4 := rfl

/-- Everything before the join. -/
def preOps : List (HloOp τ sig (Elt F)) := hostOps0 ++ (hostOps0_1 ++ (hostOps0_2 ++ (hostOps0_3 ++ pre4)))

/-- The join and everything after it. -/
def postOps : List (HloOp τ sig (Elt F)) := post4 ++ (hostOps0_5 ++ hostOps0_6)

theorem ops_split :
    List.flatten [hostOps0, hostOps0_1, hostOps0_2, hostOps0_3, hostOps0_4, hostOps0_5, hostOps0_6]
      = (preOps ++ postOps : List (HloOp τ sig (Elt F))) := by
  rw [hostOps0_4_split]
  simp only [preOps, postOps, List.flatten_cons, List.flatten_nil, List.append_nil, List.append_assoc]

variable (m : (ℓ : Loc nD τ sig) → Buf (Elt F) ℓ)

/-- The region's view of a buffer, read in the two parts. -/
theorem V_split (c : Dev nD) (b : Ref sig .tc) :
    V m c b = after postOps (after preOps (fun b => m (c, b))) b := by
  dsimp only [V]
  rw [ops_split, Cert.LibAfterAppend.after_append]

/-! ## Before the join: the coordinate arrays and the ones, over any contents -/

section Reads

variable (W : Valuation τ sig (Elt F))

set_option maxHeartbeats 2000000 in
theorem read_idxT : after preOps W (Proc.devRef .tc main_v21) = Cert.MaskMul.idxT := by
  simp only [preOps, hostOps0, hostOps0_1, hostOps0_2, hostOps0_3, pre4, List.cons_append, List.nil_append, List.append_nil]
  after_results_simp
  rfl

set_option maxHeartbeats 2000000 in
theorem read_idxH : after preOps W (Proc.devRef .tc main_v22) = Cert.MaskMul.idxH (W (Proc.devRef .tc main_arg1)) := by
  simp only [preOps, hostOps0, hostOps0_1, hostOps0_2, hostOps0_3, pre4, List.cons_append, List.nil_append, List.append_nil]
  after_results_simp
  rfl

set_option maxHeartbeats 2000000 in
theorem read_idxW : after preOps W (Proc.devRef .tc main_v23) = Cert.MaskMul.idxW (W (Proc.devRef .tc main_arg1)) := by
  simp only [preOps, hostOps0, hostOps0_1, hostOps0_2, hostOps0_3, pre4, List.cons_append, List.nil_append, List.append_nil]
  after_results_simp
  rfl

set_option maxHeartbeats 2000000 in
theorem read_ones : after preOps W (Proc.devRef .tc main_v4) = Cert.MaskMul.ones (F := F) := by
  simp only [preOps, hostOps0, hostOps0_1, hostOps0_2, hostOps0_3, pre4, List.cons_append, List.nil_append, List.append_nil]
  after_results_simp
  rfl

end Reads

/-! ## The two buffers -/

set_option maxHeartbeats 2000000 in
/-- The mask the region finds is `maskOf` of the index array as launched. -/
theorem V_mask (c : Dev nD) :
    V m c main_v26 = Cert.MaskMul.maskOf (F := F) (m ((c : Thread nD τ).loc main_arg1)) := by
  rw [V_split]
  simp only [postOps, post4, hostOps0_5, hostOps0_6, List.cons_append, List.nil_append, List.append_nil]
  after_results_simp
  dsimp only [Matrix.cons_val]
  rw [read_idxT, read_idxH, read_idxW, read_ones]
  rfl

set_option maxHeartbeats 4000000 in
/-- The expansion matrix the region finds is `onehot`. -/
theorem V_onehot (c : Dev nD) :
    V m c main_v35 = Cert.MaskMul.onehot (F := F) := by
  dsimp only [V]
  simp only [hostOps0, hostOps0_1, hostOps0_2, hostOps0_3, hostOps0_4, hostOps0_5, hostOps0_6, List.flatten_cons, List.flatten_nil,
    List.append_nil, List.cons_append, List.nil_append]
  after_results_simp
  rfl

end Cert.KernelIdeal.Hand

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«147172_j74818330296837_2_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibFlatten3.lean ====
/-
  Layout facts met when a three-axis array `[a, b, c]` is handled as a matrix of `a · b` rows: the cast that
  flattens its two leading axes into one (row `i · b + j` is the old `(i, j)`) and the cast back; one `[b, c]` slab
  `[1, b, c]` spread along a new leading axis to `[a, b, c]`; and one vector `[c]` viewed as `[1, 1, c]` and spread
  over both leading axes to `[a, b, c]`. Each is read at an entry given by its coordinates. They hold for any extents
  and for entries of any type.
-/
import Idealize.ShloMosaic.Lib.Pipeline.Value
import Idealize.ShloMosaic.Lib.ValueIdx

noncomputable section

namespace Cert.LibFlatten3

open Idealize.ShloMosaic Idealize.ShloMosaic.ValueIdx

variable {α : Type}

/-- An `[a, b, c]` array cast to `[m, c]` (with `m = a · b`) reads, at `(ρ, k)` with `ρ = i · b + j`, the operand at
    `(i, j, k)`: the same row-major position. -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (ρ : Fin m)
    (hρ : ρ.val = i.val * b + j.val) :
    shapeCast ⟨2, ![m, c]⟩ x h (ix2 ρ k) = x (ix3 i j k) :=
  shapeCast_apply x h _ _ (by
    rw [Shape.rowMajor_val_two, Shape.rowMajor_val_three]
    show (i.val * b + j.val) * c + k.val = ρ.val * c + k.val
    rw [hρ])

/-- An `[m, c]` array (with `m = a · b`) cast to `[a, b, c]` reads, at `(i, j, k)`, the operand at row `ρ = i · b + j`,
    column `k`. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (ρ : Fin m)
    (hρ : ρ.val = i.val * b + j.val) :
    shapeCast ⟨3, ![a, b, c]⟩ x h (ix3 i j k) = x (ix2 ρ k) :=
  shapeCast_apply x h _ _ (by
    rw [Shape.rowMajor_val_two, Shape.rowMajor_val_three]
    show ρ.val * c + k.val = (i.val * b + j.val) * c + k.val
    rw [hρ])

/-- A `[1, b, c]` array spread to `[a, b, c]` reads, at `(i, j, k)`, the operand at `(0, j, k)`: the same for every `i`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[c]` vector cast to `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * c + k.val
    rw [hu, hv]
    omega)

/-- A `[1, 1, c]` array spread to `[a, b, c]` reads, at `(i, j, k)`, the operand's entry `k`: the same for every `(i, j)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibFlatten3

end
-- ==== Proof.PayloadAt.lean ====
/-
  The kernel body's stored value read at one index, at the ideal instance (floats are extended reals, every
  operation exact, a change of float format the identity).

  The body's arithmetic is one pure term: the [8,16,16] mask block M gets a unit axis ([8,16,1,16]), is repeated 14
  times along it ([8,16,14,16]) and the pair (patch p, offset r) is merged into one pixel row h = 14·p + r
  ([8,224,16]), so that row h of frame t holds M(t, h div 14, ·); the rows of the 8 frames are stacked into a
  [1792,16] matrix (row 224·t + h), which is multiplied into the zero accumulator by the [16,224] matrix E; the
  [1792,224] product is cut back into frames ([8,224,224]), given a leading unit axis, repeated over the 3 channels,
  and multiplied entry by entry with the frames X.  Read at (c, t, h, w):

      X(c,t,h,w) · Σ_{k<16} M(t, h div 14, k) · E(k, w).

  Each layout step is read at an index by naming the operand's index with the same row-major position (a cast) or
  with 0 on the repeated axis (a repeat); the product is the plain row-by-column sum; the change of format is the
  identity.
-/
import proofs.«147172_j74818330296837_2_alg».proof.Proof.Terms
import proofs.«147172_j74818330296837_2_alg».proof.Proof.Gen.KernelIdeal.Skeleton
import proofs.«147172_j74818330296837_2_alg».proof.Proof.LibPlainDotFormats
import proofs.«147172_j74818330296837_2_alg».proof.Proof.LibFlatten3

noncomputable section

namespace Cert.KernelIdeal.Hand

open Cert.KernelIdeal Cert.KernelIdeal.Facts₀ Idealize.ShloMosaic ValueIdx

variable [Cert.KernelIdeal.Facts]

section Layout
variable {α : Type}

/-- An [8,16,16] array viewed as [8,16,1,16] reads, at (t, p, u, k), the operand at (t, p, k): the unit axis adds
    nothing to the row-major position. -/
theorem cast_unit_mid (x : S8x16x16.Idx → α) (hc : S8x16x16.ShapeCasts S8x16x1x16)
    (t : Fin 8) (p : Fin 16) (u : Fin 1) (k : Fin 16) :
    shapeCast S8x16x1x16 x hc (ix4 t p u k) = x (ix3 t p k) :=
  shapeCast_apply x hc _ _ (by
    have hu : u.val = 0 := by omega
    rw [Shape.rowMajor_val_three, Shape.rowMajor_val_four]
    show (t.val * 16 + p.val) * 16 + k.val = ((t.val * 16 + p.val) * 1 + u.val) * 16 + k.val
    rw [hu]; omega)

/-- An [8,16,1,16] array repeated 14 times along its unit axis reads, at (t, p, r, k), the operand at (t, p, 0, k). -/
theorem bcast_offsets (x : S8x16x1x16.Idx → α) (hb : S8x16x1x16.Broadcasts S8x16x14x16)
    (t : Fin 8) (p : Fin 16) (r : Fin 14) (k : Fin 16) :
    broadcastTo S8x16x14x16 x hb (ix4 t p r k) = x (ix4 t p (0 : Fin 1) k) := by
  refine broadcastTo_apply x hb (ix4 t p r k) (ix4 t p (0 : Fin 1) k) fun a => ?_
  match a with
  | ⟨0, _⟩ => rfl
  | ⟨1, _⟩ => rfl
  | ⟨2, _⟩ => rfl
  | ⟨3, _⟩ => rfl

/-- The offset (of 14) of pixel row `h` inside its patch. -/
def offset (h : Fin 224) : Fin 14 := ⟨h.val % 14, Nat.mod_lt _ (by decide)⟩

/-- An [8,16,14,16] array with (patch, offset) merged into one row axis, [8,224,16], reads, at (t, h, k), the operand
    at (t, h div 14, h mod 14, k): h = 14 · (h div 14) + h mod 14. -/
theorem cast_merge_rows (x : S8x16x14x16.Idx → α) (hc : S8x16x14x16.ShapeCasts S8x224x16)
    (t : Fin 8) (h : Fin 224) (k : Fin 16) :
    shapeCast S8x224x16 x hc (ix3 t h k) = x (ix4 t (Cert.MaskMul.patch h) (offset h) k) :=
  shapeCast_apply x hc _ _ (by
    rw [Shape.rowMajor_val_four, Shape.rowMajor_val_three]
    show ((t.val * 16 + h.val / 14) * 14 + h.val % 14) * 16 + k.val = (t.val * 224 + h.val) * 16 + k.val
    omega)

/-- An [8,224,224] array given a leading unit axis reads, at (u, t, h, w), the operand at (t, h, w). -/
theorem cast_unit_lead (x : S8x224x224.Idx → α) (hc : S8x224x224.ShapeCasts S1x8x224x224)
    (u : Fin 1) (t : Fin 8) (h w : Fin 224) :
    shapeCast S1x8x224x224 x hc (ix4 u t h w) = x (ix3 t h w) :=
  shapeCast_apply x hc _ _ (by
    have hu : u.val = 0 := by omega
    rw [Shape.rowMajor_val_three, Shape.rowMajor_val_four]
    show (t.val * 224 + h.val) * 224 + w.val = ((u.val * 8 + t.val) * 224 + h.val) * 224 + w.val
    rw [hu]; omega)

/-- A [1,8,224,224] array repeated over 3 channels reads, at (c, t, h, w), the operand at (0, t, h, w). -/
theorem bcast_channels (x : S1x8x224x224.Idx → α) (hb : S1x8x224x224.Broadcasts S3x8x224x224)
    (c : Fin 3) (t : Fin 8) (h w : Fin 224) :
    broadcastTo S3x8x224x224 x hb (ix4 c t h w) = x (ix4 (0 : Fin 1) t h w) := by
  refine broadcastTo_apply x hb (ix4 c t h w) (ix4 (0 : Fin 1) t h w) fun a => ?_
  match a with
  | ⟨0, _⟩ => rfl
  | ⟨1, _⟩ => rfl
  | ⟨2, _⟩ => rfl
  | ⟨3, _⟩ => rfl

end Layout

/-- Row 224·t + h of the stacked [1792, ·] matrices: pixel row h of frame t. -/
def stacked (t : Fin 8) (h : Fin 224) : Fin 1792 := ⟨t.val * 224 + h.val, by have := t.isLt; have := h.isLt; omega⟩

/-- The body's contraction is a plain [1792,16] × [16,224] → [1792,224] product. -/
theorem dot_plain : Cert.LibPlainDot.Plain dot_S1792x16_S16x224_S1792x224_1_0_0_1_n_n :=
  ⟨rfl, rfl, rfl, rfl, rfl, rfl⟩

/-- The stored value at (c, t, h, w): the frame entry times the row-by-column sum of the mask row of (t, h div 14)
    with column w of the matrix. -/
theorem pay_apply (x0 : Vec Ideal S3x8x224x224 .f32) (x1 : Vec Ideal S8x16x16 .f32) (x2 : Vec Ideal S16x224 .bf16)
    (c : Fin 3) (t : Fin 8) (h w : Fin 224) :
    Cert.KernelIdeal.Gen.k0_pay1 (F := Ideal) x0 x1 x2 (ValueIdx.ix4 c t h w)
      = x0 (ValueIdx.ix4 c t h w) * ∑ k : Fin 16, x1 (ValueIdx.ix3 t (Cert.MaskMul.patch h) k) * x2 (ValueIdx.ix2 k w) := by
  unfold Cert.KernelIdeal.Gen.k0_pay1
  refine (mulf_apply _ _ _).trans ?_
  refine congrArg (x0 (ValueIdx.ix4 c t h w) * ·) ?_
  -- the channel repeat, the leading unit axis, the cut of the 1792 rows into frames
  refine (bcast_channels _ _ c t h w).trans ?_
  refine (cast_unit_lead _ _ (0 : Fin 1) t h w).trans ?_
  refine (Cert.LibFlatten3.shapeCast_mc_abc_apply _ _ t h w (stacked t h) rfl).trans ?_
  -- the product, entry (224·t + h, w)
  refine (dot_plain.matmul_zero_apply_formats none _ _ (stacked t h) w).trans ?_
  refine Finset.sum_congr rfl fun k _ => ?_
  refine congrArg₂ (· * ·) ?_ ?_
  · -- the left operand at (224·t + h, k) is the mask at (t, h div 14, k)
    refine (Cert.LibFlatten3.shapeCast_abc_mc_apply _ _ t h k (stacked t h) rfl).trans ?_
    refine (truncf_apply (φ := .f32) (ψ := .bf16) _ bitsLt_bf16_f32 (ix3 t h k)).trans ?_
    refine (cast_merge_rows _ _ t h k).trans ?_
    refine (bcast_offsets _ _ t (Cert.MaskMul.patch h) (offset h) k).trans ?_
    refine (congrFun (shapeCast_self _ _) _).trans ?_
    refine (cast_unit_mid _ _ t (Cert.MaskMul.patch h) (0 : Fin 1) k).trans ?_
    exact congrFun (shapeCast_self _ _) _
  · -- the right operand is the matrix itself
    exact congrFun (shapeCast_self _ _) _

end Cert.KernelIdeal.Hand

end
-- ==== Proof.OutAt.lean ====
/-
  The output buffer after the body, read at one index, at the ideal instance (floats are extended reals, every
  operation exact).

  The body loads its three input buffers whole, computes one value and stores it over the whole output buffer; a load
  through the whole-buffer rectangle is the buffer's contents and a single store through it leaves exactly what was
  stored.  So the output buffer at (c, t, h, w) is the body's value at that index,

      X(c,t,h,w) · Σ_{k<16} M(t, h div 14, k) · E(k, w).

  When the matrix E is the column indicator, E(k, w) = 1 if w div 14 = k and 0 otherwise, every term of the sum but
  the one at k = w div 14 is a product with 0, which is 0 on the extended reals whatever the other factor (an infinite
  one included), and the remaining term is a product with 1.  So the output is

      X(c,t,h,w) · M(t, h div 14, w div 14),

  with no finiteness asked of M.
-/
import proofs.«147172_j74818330296837_2_alg».proof.Proof.FrameKI
import proofs.«147172_j74818330296837_2_alg».proof.Proof.PayloadAt

noncomputable section

namespace Cert.KernelIdeal.Hand

open Cert.KernelIdeal Cert.KernelIdeal.Gen Idealize.ShloMosaic ValueIdx

variable [Cert.KernelIdeal.Facts]

/-- A sum against an indicator keeps one term: Σ_k a(k) · [q = k] = a(q), on the extended reals (x · 0 = 0 and
    x · 1 = x for every x). -/
theorem sum_mul_indicator (a : Fin 16 → EReal) (q : Fin 16) :
    ∑ k : Fin 16, a k * (if q = k then (1 : EReal) else 0) = a q := by
  rw [Finset.sum_eq_single q]
  · rw [if_pos rfl, mul_one]
  · intro b _ hb
    rw [if_neg (Ne.symm hb), mul_zero]
  · intro hq
    exact absurd (Finset.mem_univ q) hq

/-- The output buffer at (c, t, h, w), when the matrix is the column indicator: the frame entry times the mask entry of
    the patch (h div 14, w div 14). -/
theorem out_at (x0 : Vec Ideal S3x8x224x224 .f32) (x1 : Vec Ideal S8x16x16 .f32) (x2 : Vec Ideal S16x224 .bf16)
    (hx2 : ∀ (k : Fin 16) (w : Fin 224), x2 (ValueIdx.ix2 k w) = if Cert.MaskMul.patch w = k then (1 : EReal) else 0)
    (c : Fin 3) (t : Fin 8) (h w : Fin 224) :
    out0_3 (F := Ideal) x0 x1 x2 (ValueIdx.ix4 c t h w)
      = x0 (ValueIdx.ix4 c t h w) * x1 (ValueIdx.ix3 t (Cert.MaskMul.patch h) (Cert.MaskMul.patch w)) := by
  have hz4 : (![0, 0, 0, 0] : Fin 4 → Nat) = fun _ => 0 := funext fun a => by fin_cases a <;> rfl
  have hz3 : (![0, 0, 0] : Fin 3 → Nat) = fun _ => 0 := funext fun a => by fin_cases a <;> rfl
  have hz2 : (![0, 0] : Fin 2 → Nat) = fun _ => 0 := funext fun a => by fin_cases a <;> rfl
  -- the one whole-buffer store leaves what was stored; each whole-buffer load reads the buffer
  unfold out0_3
  rw [View.canon_unit_zero hz4]
  simp only [View.ld_unit_zero (S := S3x8x224x224) hz4, View.ld_unit_zero (S := S8x16x16) hz3,
    View.ld_unit_zero (S := S16x224) hz2]
  -- the body's value at the index, then the indicator under the sum
  refine (pay_apply x0 x1 x2 c t h w).trans ?_
  refine congrArg (x0 (ValueIdx.ix4 c t h w) * ·) ?_
  refine (Finset.sum_congr rfl fun k _ => by rw [hx2 k w]).trans ?_
  exact sum_mul_indicator (fun k => x1 (ValueIdx.ix3 t (Cert.MaskMul.patch h) k)) (Cert.MaskMul.patch w)

end Cert.KernelIdeal.Hand

end
-- ==== Proof.Cover.lean ====
/-
  The kernel's result window tiles the result array.

  The result array has shape [3, 256, 224, 224]; the result window's block is [3, 8, 224, 224] and its index map sends
  grid point t (of 32) to the block index (0, t, 0, 0). So point t owns frames 8 t … 8 t + 7, all channels, rows and
  columns: an index lies in point t's block iff each coordinate lies in the block's range on its axis (`mem_blk3`),
  and every index of the array lies in the block of the point numbered by its frame divided by 8, which writes its
  block back (`cover3`). `idx_facts3` is the four windows' index maps in closed form, decided once over the 32
  points: the frames and the result move along axis 1 with the point, the mask along axis 0, and the column-expansion
  matrix stays in place.
-/
import proofs.«147172_j74818330296837_2_alg».proof.Proof.Gen.KernelIdeal.Points
import proofs.«147172_j74818330296837_2_alg».proof.Proof.Gen.KernelIdeal.Launch
import Idealize.ShloMosaic.Lib.Pipeline.Value

noncomputable section

namespace Cert.KernelIdeal.Hand

open Cert.KernelIdeal Cert.KernelIdeal.Gen Idealize.ShloMosaic

/-- The four windows' index maps at grid point t, axis by axis: the frames (window 0) and the result (window 3) are at
    block (0, t, 0, 0), the mask (window 1) at block (t, 0, 0), the column-expansion matrix (window 2) at block (0, 0). -/
theorem idx_facts3 : ∀ t : Fin cfg0.N, win0_3.index t (0 : Fin 4) = 0 ∧ win0_3.index t (1 : Fin 4) = t.val ∧ win0_3.index t (2 : Fin 4) = 0 ∧ win0_3.index t (3 : Fin 4) = 0
    ∧ win0_0.index t (0 : Fin 4) = 0 ∧ win0_0.index t (1 : Fin 4) = t.val ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0 :=
  (by decide +kernel : ∀ t : Fin grid0.N, _)

/-- An index of the result array is in point t's block iff each coordinate is in the block's range on its axis. -/
theorem mem_blk3 (t : Fin cfg0.N) (i : S3x256x224x224.Idx) :
    i ∈ ((cfg0.win 3).blk t).view.set ↔ ∀ a : Fin 4, win0_3.index t a * S3x8x224x224.size a ≤ (i a).val ∧ (i a).val < win0_3.index t a * S3x8x224x224.size a + S3x8x224x224.size a := by
  show i ∈ ((View.whole main_v36).slice (win0_3.rect t)).set ↔ _
  rw [View.set_slice_whole, Rect.mem_set_unit]
  exact Iff.rfl

/-- Every index of the result array lies in the block of a point that writes back: the point numbered by the index's
    frame divided by 8. -/
theorem cover3 (i : S3x256x224x224.Idx) : ∃ t : Fin cfg0.N, (cfg0.win 3).flush t = true ∧ i ∈ ((cfg0.win 3).blk t).view.set := by
  have hi0 : (i 0).val < 3 := (i 0).isLt
  have hi1 : (i 1).val < 256 := (i 1).isLt
  have hi2 : (i 2).val < 224 := (i 2).isLt
  have hi3 : (i 3).val < 224 := (i 3).isLt
  have hN : cfg0.N = 32 := N_0
  let t : Fin cfg0.N := ⟨(i 1).val / 8, by rw [hN]; omega⟩
  have ht : t.val = (i 1).val / 8 := rfl
  obtain ⟨e0, e1, e2, e3, -⟩ := idx_facts3 t
  refine ⟨t, flush0_3 t, ?_⟩
  rw [mem_blk3]
  intro a
  match a with
  | ⟨0, _⟩ => show win0_3.index t (0 : Fin 4) * 3 ≤ (i 0).val ∧ (i 0).val < win0_3.index t (0 : Fin 4) * 3 + 3; omega
  | ⟨1, _⟩ => show win0_3.index t (1 : Fin 4) * 8 ≤ (i 1).val ∧ (i 1).val < win0_3.index t (1 : Fin 4) * 8 + 8; omega
  | ⟨2, _⟩ => show win0_3.index t (2 : Fin 4) * 224 ≤ (i 2).val ∧ (i 2).val < win0_3.index t (2 : Fin 4) * 224 + 224; omega
  | ⟨3, _⟩ => show win0_3.index t (3 : Fin 4) * 224 ≤ (i 3).val ∧ (i 3).val < win0_3.index t (3 : Fin 4) * 224 + 224; omega

end Cert.KernelIdeal.Hand

end
-- ==== Proof.LayoutAt.lean ====
/-
  Three facts about the arrays both programs share, at the ideal values (floats are extended reals).

  (1) `expand_apply`: the expanded mask at channel c, frame t, pixel row h, pixel column w is the mask at frame t,
      patch row h div 14, patch column w div 14. The expansion is six layout operations, each read at an index: a new
      axis of extent 14 after the patch-row axis and its merge with that axis (pixel row h = 14 p + r lies in patch
      row p), the same for the columns (pixel column w = 14 q + s lies in patch column q), a new leading unit axis,
      and its repetition over the three channels. A reshape keeps the row-major position, which is where
      h = 14 (h div 14) + h mod 14 is used.

  (2) `onehot_apply`: entry (q, w) of the column-expansion matrix is 1 when pixel column w lies in patch column q
      (w div 14 = q) and 0 otherwise. On the 32-bit words of the numbers below 224, the floor division by 14 (the
      truncating quotient, less one when the signs differ and the remainder is nonzero) is the natural-number
      quotient: a finite check over the 224 words. Two words of numbers below 2^32 are equal exactly when the
      numbers are, and the one-bit result of the comparison converts to the real number 1 or 0.

  (3) `onehot_sum`: a sum over the 16 patch columns against the indicator of one of them keeps that one term; on the
      extended reals x * 0 = 0 and x * 1 = x for every x, infinite ones included, so nothing need be finite.
-/
import proofs.«147172_j74818330296837_2_alg».proof.Proof.Terms
import Idealize.ShloMosaic.Lib.Pipeline.Value
import Idealize.ShloMosaic.Lib.ValueIdx
import Idealize.ShloMosaic.Lib.IdealHost

noncomputable section

namespace Cert.MaskMul

open Idealize.ShloMosaic ValueIdx

/-- A sum over the patch columns against the indicator of patch column `patch w` is the term at `patch w`: every other
    term is `a k * 0 = 0`, and the remaining one is `a (patch w) * 1`. -/
theorem onehot_sum (a : Fin 16 → EReal) (w : Fin 224) :
    ∑ k : Fin 16, a k * (if patch w = k then (1 : EReal) else 0) = a (patch w) := by
  rw [Finset.sum_eq_single (patch w)]
  · rw [if_pos rfl, mul_one]
  · intro b _ hb
    rw [if_neg (Ne.symm hb), mul_zero]
  · intro h
    exact absurd (Finset.mem_univ _) h

section Reference

open Cert.ReferenceIdeal Cert.ReferenceIdeal.Facts₀

variable [Cert.ReferenceIdeal.Facts]

/-- The expanded mask at (c, t, h, w) is the mask at (t, h div 14, w div 14). -/
theorem expand_apply (M : FVec Ideal Cert.ReferenceIdeal.S256x16x16 .f32) (c : Fin 3) (t : Fin 256) (h w : Fin 224) :
    Cert.MaskMul.expand (F := Ideal) M (ValueIdx.ix4 c t h w) = M (ValueIdx.ix3 t (patch h) (patch w)) := by
  have hh : h.val < 224 := h.isLt
  have hw : w.val < 224 := w.isLt
  have hph : (patch h).val = h.val / 14 := rfl
  have hpw : (patch w).val = w.val / 14 := rfl
  -- the position of a pixel row or column inside its patch
  let rh : Fin 14 := ⟨h.val % 14, Nat.mod_lt _ (by decide)⟩
  let rw' : Fin 14 := ⟨w.val % 14, Nat.mod_lt _ (by decide)⟩
  unfold expand
  -- the three channels repeat the one-channel array: [3,256,224,224] at (c,t,h,w) reads [1,256,224,224] at (0,t,h,w)
  refine (broadcastInDim_apply _ _ _ _ (ix4 (0 : Fin 1) t h w)
    (fun a => match a with | ⟨0, _⟩ => rfl | ⟨1, _⟩ => rfl | ⟨2, _⟩ => rfl | ⟨3, _⟩ => rfl)).trans ?_
  -- the leading unit axis: [1,256,224,224] at (0,t,h,w) reads [256,224,224] at (t,h,w)
  refine (broadcastInDim_apply _ _ _ _ (ix3 t h w)
    (fun a => match a with | ⟨0, _⟩ => rfl | ⟨1, _⟩ => rfl | ⟨2, _⟩ => rfl)).trans ?_
  -- the column merge: [256,224,224] at (t,h,w) reads [256,224,16,14] at (t,h,w div 14,w mod 14)
  refine (shapeCast_apply _ _ _ (ix4 t h (patch w) rw')
    (by rw [Shape.rowMajor_val_four, Shape.rowMajor_val_three]
        show ((t.val * 224 + h.val) * 16 + (patch w).val) * 14 + w.val % 14 = (t.val * 224 + h.val) * 224 + w.val
        omega)).trans ?_
  -- the new axis of extent 14 behind the patch columns: [256,224,16,14] at (t,h,q,s) reads [256,224,16] at (t,h,q)
  refine (broadcastInDim_apply _ _ _ _ (ix3 t h (patch w))
    (fun a => match a with | ⟨0, _⟩ => rfl | ⟨1, _⟩ => rfl | ⟨2, _⟩ => rfl)).trans ?_
  -- the row merge: [256,224,16] at (t,h,q) reads [256,16,14,16] at (t,h div 14,h mod 14,q)
  refine (shapeCast_apply _ _ _ (ix4 t (patch h) rh (patch w))
    (by rw [Shape.rowMajor_val_four, Shape.rowMajor_val_three]
        show ((t.val * 16 + (patch h).val) * 14 + h.val % 14) * 16 + (patch w).val = (t.val * 224 + h.val) * 16 + (patch w).val
        omega)).trans ?_
  -- the new axis of extent 14 behind the patch rows: [256,16,14,16] at (t,p,r,q) reads the mask at (t,p,q)
  exact broadcastInDim_apply _ _ _ _ (ix3 t (patch h) (patch w))
    (fun a => match a with | ⟨0, _⟩ => rfl | ⟨1, _⟩ => rfl | ⟨2, _⟩ => rfl)

end Reference

/-- The floor division by 14 on one 32-bit word: the truncating quotient, less one when the dividend's sign differs
    from the divisor's and the truncating remainder is nonzero. -/
def fdiv14 (x : BitVec 32) : BitVec 32 :=
  Scalar.select
    (IntOp.andi
      (IntOp.cmpi .ne (if x = 0 then (0 : BitVec 32) else if x.msb then (-1 : BitVec 32) else (1 : BitVec 32))
        (if (14#32 : BitVec 32) = 0 then (0 : BitVec 32) else if (14#32 : BitVec 32).msb then (-1 : BitVec 32) else (1 : BitVec 32)))
      (IntOp.cmpi .ne (IntOp.remsi .host x 14#32) 0#32))
    (IntOp.subi (IntOp.divsi .host x 14#32) 1#32)
    (IntOp.divsi .host x 14#32)

/-- On the word of a number below 224 the floor division by 14 is the word of the natural-number quotient: a check
    of 224 cases. -/
theorem fdiv14_ofNat : ∀ w : Fin 224, fdiv14 (BitVec.ofNat 32 w.val) = BitVec.ofNat 32 (w.val / 14) := by
  decide +kernel

/-- The 32-bit words of two numbers below 2^32 are equal only if the numbers are. -/
theorem ofNat32_inj {a b : Nat} (ha : a < 2 ^ 32) (hb : b < 2 ^ 32) (h : BitVec.ofNat 32 a = BitVec.ofNat 32 b) : a = b := by
  have e := congrArg BitVec.toNat h
  rw [BitVec.toNat_ofNat, BitVec.toNat_ofNat, Nat.mod_eq_of_lt ha, Nat.mod_eq_of_lt hb] at e
  exact e

section Kernel

open Cert.KernelIdeal Cert.KernelIdeal.Facts₀

variable [Cert.KernelIdeal.Facts]

/-- Entry (q, w) of the column-expansion matrix, before any arithmetic: the comparison of the floor quotient of the
    word of w with the word of q, converted. -/
theorem onehot_apply_word (q : Fin 16) (w : Fin 224) :
    Cert.MaskMul.onehot (F := Ideal) (ValueIdx.ix2 q w)
      = FloatOps.uitofp (F := Ideal) .bf16 (IntOp.cmpi .eq (fdiv14 (BitVec.ofNat 32 w.val)) (BitVec.ofNat 32 q.val)) := by
  -- the row of pixel-column numbers, read at (0, w)
  have h29 : broadcastInDim S1x224 ![1] bcast_S224_S1x224_1 (iotaInDim S224 32 0) (ix2 (0 : Fin 1) w) = BitVec.ofNat 32 w.val :=
    broadcastInDim_apply _ _ _ _ (ix1 w) (fun a => match a with | ⟨0, _⟩ => rfl)
  -- the column of patch-column numbers, read at (q, 0)
  have h31 : broadcastInDim S16x1 ![0] bcast_S16_S16x1_0 (iotaInDim S16 32 0) (ix2 q (0 : Fin 1)) = BitVec.ofNat 32 q.val :=
    broadcastInDim_apply _ _ _ _ (ix1 q) (fun a => match a with | ⟨0, _⟩ => rfl)
  unfold onehot
  refine congrArg (FloatOps.uitofp (F := Ideal) .bf16) (congrArg₂ (IntOp.cmpi .eq) ?_ ?_)
  · -- the quotient row repeated down the 16 rows: [16,224] at (q,w) reads [1,224] at (0,w)
    refine (broadcastInDim_apply _ _ _ _ (ix2 (0 : Fin 1) w)
      (fun a => match a with | ⟨0, _⟩ => rfl | ⟨1, _⟩ => rfl)).trans ?_
    -- every operation of the floor division acts entry by entry
    refine Eq.trans ?_ (congrArg fdiv14 h29)
    rfl
  · -- the patch-column numbers repeated along the 224 columns: [16,224] at (q,w) reads [16,1] at (q,0)
    refine (broadcastInDim_apply _ _ _ _ (ix2 q (0 : Fin 1))
      (fun a => match a with | ⟨0, _⟩ => rfl | ⟨1, _⟩ => rfl)).trans ?_
    exact h31

/-- Entry (q, w) of the column-expansion matrix is 1 when pixel column w lies in patch column q, and 0 otherwise. -/
theorem onehot_apply (q : Fin 16) (w : Fin 224) :
    Cert.MaskMul.onehot (F := Ideal) (ValueIdx.ix2 q w) = if patch w = q then (1 : EReal) else 0 := by
  rw [onehot_apply_word, fdiv14_ofNat]
  show ((((IntOp.cmpi .eq (BitVec.ofNat 32 (w.val / 14)) (BitVec.ofNat 32 q.val)).toNat : ℕ) : ℝ) : EReal) = _
  have hw : w.val < 224 := w.isLt
  have hq : q.val < 16 := q.isLt
  by_cases hp : patch w = q
  · have e : w.val / 14 = q.val := congrArg Fin.val hp
    rw [if_pos hp, e]
    show ((((BitVec.ofBool (BitVec.ofNat 32 q.val == BitVec.ofNat 32 q.val)).toNat : ℕ) : ℝ) : EReal) = 1
    rw [beq_self_eq_true]
    show (((1 : ℕ) : ℝ) : EReal) = 1
    rw [Nat.cast_one, EReal.coe_one]
  · have e : ¬ BitVec.ofNat 32 (w.val / 14) = BitVec.ofNat 32 q.val := fun h =>
      hp (Fin.ext (ofNat32_inj (by omega) (by omega) h))
    rw [if_neg hp]
    show ((((BitVec.ofBool (BitVec.ofNat 32 (w.val / 14) == BitVec.ofNat 32 q.val)).toNat : ℕ) : ℝ) : EReal) = 0
    rw [beq_eq_false_iff_ne.mpr e]
    show (((0 : ℕ) : ℝ) : EReal) = 0
    rw [Nat.cast_zero, EReal.coe_zero]

end Kernel

end Cert.MaskMul

end
-- ==== Proof.KFinal.lean ====
/-
  The kernel's result array after the run, as one function of the arguments: entry (c, t, h, w) is the frame's entry
  times the mask entry of the pixel's patch, (t, h div 14, w div 14).

  Grid point t owns frames 8t … 8t+7 of the result. What it writes back is the body's value of the three blocks it was
  handed: the frames' block (the same frames), the mask's block (the same 8 frames' mask rows) and the whole
  expansion matrix, whose entry (k, w) is 1 when w div 14 = k and 0 otherwise. At a position (c, s, h, w) of the block
  the body's value is frame entry times the sum over k of mask(s, h div 14, k) times that 0-or-1, which is
  mask(s, h div 14, w div 14). Read at the array position (c, 8t + s, h, w) this is the stated function. The 32 blocks
  tile the array, so the array after the run is that function everywhere.
-/
import proofs.«147172_j74818330296837_2_alg».proof.Proof.FrameKI
import proofs.«147172_j74818330296837_2_alg».proof.Proof.KHost
import proofs.«147172_j74818330296837_2_alg».proof.Proof.OutAt
import proofs.«147172_j74818330296837_2_alg».proof.Proof.Cover
import proofs.«147172_j74818330296837_2_alg».proof.Proof.LayoutAt
import Idealize.ShloMosaic.Lib.Pipeline.Value
import Idealize.ShloMosaic.Lib.ValueIdx

set_option maxRecDepth 16384

noncomputable section

namespace Cert.MaskMul

open Idealize.ShloMosaic ValueIdx

/-- The frames times the mask entry of each pixel's patch. -/
def masked (a0 : (⟨4, ![3, 256, 224, 224]⟩ : Shape).Idx → EReal) (M : (⟨3, ![256, 16, 16]⟩ : Shape).Idx → EReal) :
    (⟨4, ![3, 256, 224, 224]⟩ : Shape).Idx → EReal :=
  fun i => a0 i * M (ix3 (⟨(i 1).val, (i 1).isLt⟩ : Fin 256) (patch ⟨(i 2).val, (i 2).isLt⟩) (patch ⟨(i 3).val, (i 3).isLt⟩))

theorem masked_ix4 (a0 : (⟨4, ![3, 256, 224, 224]⟩ : Shape).Idx → EReal) (M : (⟨3, ![256, 16, 16]⟩ : Shape).Idx → EReal)
    (c : Fin 3) (t : Fin 256) (h w : Fin 224) :
    masked a0 M (ix4 c t h w) = a0 (ix4 c t h w) * M (ix3 t (patch h) (patch w)) := rfl

end Cert.MaskMul

namespace Cert.KernelIdeal.Hand

open Cert.KernelIdeal Cert.KernelIdeal.Gen
open Idealize.ShloMosaic Idealize.ShloMosaic.TcCoe Idealize.SL.Sem ValueIdx
open Idealize.ShloMosaic.Pipeline (Dat)
open Cert.MaskMul (patch masked)

/-- One point, over plain arrays: if the three blocks are the arrays read at positions shifted by 8·tv frames (the
    matrix whole), the output buffer is `masked` read at the shifted position. -/
theorem point_eq (x0 : Vec Ideal S3x8x224x224 .f32) (x1 : Vec Ideal S8x16x16 .f32) (x2 : Vec Ideal S16x224 .bf16)
    (hx2 : ∀ (k : Fin 16) (w : Fin 224), x2 (ix2 k w) = if patch w = k then (1 : EReal) else 0)
    (A0 : S3x256x224x224.Idx → EReal) (M : S256x16x16.Idx → EReal) (tv : Nat)
    (e0 : S3x8x224x224.Idx → S3x256x224x224.Idx) (e1 : S8x16x16.Idx → S256x16x16.Idx)
    (he0 : ∀ y, (e0 y 0).val = (y 0).val ∧ (e0 y 1).val = tv * 8 + (y 1).val ∧ (e0 y 2).val = (y 2).val ∧ (e0 y 3).val = (y 3).val)
    (he1 : ∀ y, (e1 y 0).val = tv * 8 + (y 0).val ∧ (e1 y 1).val = (y 1).val ∧ (e1 y 2).val = (y 2).val)
    (hx0 : ∀ y, x0 y = A0 (e0 y)) (hx1 : ∀ y, x1 y = M (e1 y)) (y : S3x8x224x224.Idx) :
    out0_3 (F := Ideal) x0 x1 x2 y = masked A0 M (e0 y) := by
  obtain ⟨c, s, h, w, rfl⟩ : ∃ (c : Fin 3) (s : Fin 8) (h w : Fin 224), y = ix4 c s h w := ⟨y 0, y 1, y 2, y 3, eq_ix4 y⟩
  rw [out_at x0 x1 x2 hx2 c s h w, hx0, hx1]
  unfold masked
  obtain ⟨a0, a1, a2, a3⟩ := he0 (ix4 c s h w)
  obtain ⟨b0, b1, b2⟩ := he1 (ix3 s (patch h) (patch w))
  refine congrArg (fun z => A0 (e0 (ix4 c s h w)) * M z) ?_
  funext a
  apply Fin.ext
  match a with
  | ⟨0, _⟩ => show (e1 (ix3 s (patch h) (patch w)) 0).val = (e0 (ix4 c s h w) 1).val; rw [b0, a1]
  | ⟨1, _⟩ => show (e1 (ix3 s (patch h) (patch w)) 1).val = (e0 (ix4 c s h w) 2).val / 14; rw [b1, a2]; rfl
  | ⟨2, _⟩ => show (e1 (ix3 s (patch h) (patch w)) 2).val = (e0 (ix4 c s h w) 3).val / 14; rw [b2, a3]; rfl

/-- One point, over plain arrays A0 (frames), A1 (mask), A2 (the expansion matrix): the body's value of the three
    blocks of point `t` is block `t` of `masked A0 A1`. -/
theorem blocks_eq (A0 : S3x256x224x224.Idx → EReal) (A1 : S256x16x16.Idx → EReal) (A2 : S16x224.Idx → EReal)
    (hA2 : A2 = Cert.MaskMul.onehot (F := Ideal)) (t : Fin cfg0.N) :
    out0_3 (F := Ideal) (((cfg0.win 0).blk t).view.read (Elt Ideal) A0) (((cfg0.win 1).blk t).view.read (Elt Ideal) A1)
        (((cfg0.win 2).blk t).view.read (Elt Ideal) A2)
      = ((cfg0.win 3).blk t).view.read (Elt Ideal) (masked A0 A1) := by
  obtain ⟨e30, e31, e32, e33, e00, e01, e02, e03, e10, e11, e12, e20, e21⟩ := idx_facts3 t
  funext j
  refine point_eq _ _ _ ?_ A0 A1 t.val (((cfg0.win 3).blk t).view.emb) (((cfg0.win 1).blk t).view.emb) ?_ ?_ ?_ ?_ j
  · intro k w
    show A2 (((cfg0.win 2).blk t).view.emb (ix2 k w)) = _
    have hemb : ((cfg0.win 2).blk t).view.emb (ix2 k w) = ix2 k w := by
      funext a; apply Fin.ext
      match a with
      | ⟨0, _⟩ => show win0_2.index t (0 : Fin 2) * 16 + 1 * k.val = k.val; omega
      | ⟨1, _⟩ => show win0_2.index t (1 : Fin 2) * 224 + 1 * w.val = w.val; omega
    rw [hemb, hA2]
    exact Cert.MaskMul.onehot_apply k w
  · intro y
    refine ⟨?_, ?_, ?_, ?_⟩
    · show win0_3.index t (0 : Fin 4) * 3 + 1 * (y 0).val = (y 0).val; omega
    · show win0_3.index t (1 : Fin 4) * 8 + 1 * (y 1).val = t.val * 8 + (y 1).val; omega
    · show win0_3.index t (2 : Fin 4) * 224 + 1 * (y 2).val = (y 2).val; omega
    · show win0_3.index t (3 : Fin 4) * 224 + 1 * (y 3).val = (y 3).val; omega
  · intro y
    refine ⟨?_, ?_, ?_⟩
    · show win0_1.index t (0 : Fin 3) * 8 + 1 * (y 0).val = t.val * 8 + (y 0).val; omega
    · show win0_1.index t (1 : Fin 3) * 16 + 1 * (y 1).val = (y 1).val; omega
    · show win0_1.index t (2 : Fin 3) * 16 + 1 * (y 2).val = (y 2).val; omega
  · intro y
    show A0 (((cfg0.win 0).blk t).view.emb y) = A0 (((cfg0.win 3).blk t).view.emb y)
    refine congrArg A0 ?_
    funext a; apply Fin.ext
    match a with
    | ⟨0, _⟩ => show win0_0.index t (0 : Fin 4) * 3 + 1 * (y 0).val = win0_3.index t (0 : Fin 4) * 3 + 1 * (y 0).val; omega
    | ⟨1, _⟩ => show win0_0.index t (1 : Fin 4) * 8 + 1 * (y 1).val = win0_3.index t (1 : Fin 4) * 8 + 1 * (y 1).val; omega
    | ⟨2, _⟩ => show win0_0.index t (2 : Fin 4) * 224 + 1 * (y 2).val = win0_3.index t (2 : Fin 4) * 224 + 1 * (y 2).val; omega
    | ⟨3, _⟩ => show win0_0.index t (3 : Fin 4) * 224 + 1 * (y 3).val = win0_3.index t (3 : Fin 4) * 224 + 1 * (y 3).val; omega
  · intro y
    rfl

variable (m : (ℓ : Loc nD τ sig) → Buf (Elt Ideal) ℓ) (ρ : Dev nD → PrngReg)

/-- What point `t` writes back is block `t` of `masked` of the frames and the mask as the region finds them. -/
theorem flushed3_eq (c : Dev nD) (t : Fin cfg0.N) :
    (dats m 0 c).flushed 3 t
      = ((cfg0.win 3).blk t).view.read (Elt Ideal) (masked (V m c (Pipeline.arrRef spec0 0)) (V m c (Pipeline.arrRef spec0 1))) := by
  show (cfg0.win 3).cut (grid0.coords t) ((dats m 0 c).after 3 t) = _
  rw [after0_3]
  unfold iblk
  exact blocks_eq _ _ _ (V_onehot m c) t

/-- The result array after the run. -/
theorem final3 (c : Dev nD) :
    (dats m 0 c).arrAt 3 cfg0.N = masked (V m c (Pipeline.arrRef spec0 0)) (V m c (Pipeline.arrRef spec0 1)) :=
  (dats m 0 c).arrAt_eq_of_cover 3 _ (fun t _ => flushed3_eq m c t) cover3

/-- The kernel's run with the result array named: `masked` of the launched frames and of the mask built from the launched
    index array; the arguments unchanged. -/
theorem run : θ_run defs (onTc (τ := τ) (main (F := Ideal))) ⟨m, fun _ => 0, ρ⟩ fun r => ∀ c : Dev nD,
      r.2.mem ((c : Thread nD τ).loc main_v36) = masked (m ((c : Thread nD τ).loc main_arg0)) (Cert.MaskMul.maskOf (F := Ideal) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 3).trans ((final3 m c).trans
        (congrArg₂ masked (V_main_arg0 m c) (V_mask m c))),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.Hand

end
-- ==== Proof.RefRun.lean ====
/-
  The reference program's run, operation by operation.

  The reference computes, from the frames a0 (3 x 256 x 224 x 224) and the patch numbers a1 (256 x 128), the frames
  times a mask: a 256 x 16 x 16 array of ones in which, for frame t and each patch number n listed for it, the entry
  (t, n mod 16, n div 16) is overwritten by zero, every entry then repeated 14 times along each patch axis and over the
  three channels. Its program is a straight line of 80 array operations once its two outlined functions are written
  out where they are called: the remainder by 16 (21 operations: the truncating remainder, moved by the divisor when
  it is nonzero and of the other sign) and the floor division by 16 (17 operations: the truncating quotient, less one
  when the signs differ and the remainder is nonzero), each preceded by the constant 16; then 29 operations that
  build the frame number t and wrap each of the three coordinates once if negative; the join of (t, n mod 16, n div 16)
  into one index vector along a new last axis, the zeros, and the scatter of the zeros into the ones; then the six
  that expand the mask and the product.

  `ops` is that list; `main_eq` says the program is the list run in order (unfolding the two functions and their
  inner selects, and re-associating the sequencing); `run` says that every weakly fair execution terminates with the
  result buffer holding `Cert.MaskMul.result a0 a1` — the same operations composed as one term of the two arguments'
  launch contents — and both argument buffers unchanged.

  The contents after the line are a fold in which each operation rewrites its own result buffer only, so reading the
  fold at a buffer is one step per operation: the operation's function of its operands' contents at its own buffer,
  what was there at any other. The line is read in two parts, cut where the three coordinate arrays are joined (the
  fold over a concatenated list is the composition of the folds): before the cut each coordinate array and the
  all-ones grid is a composition of elementwise operations and broadcasts of the patch numbers or of nothing; after it
  the result is the product of the first argument with the expansion of the scatter at the joined index vectors.
-/
import proofs.«147172_j74818330296837_2_alg».proof.Proof.Terms
import proofs.«147172_j74818330296837_2_alg».proof.Proof.LibAfterAppend
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem

variable {F : FTy → Type} [FloatOps F] [Cert.ReferenceIdeal.Facts]

/-- The 80 operations in order: the constant 16, the remainder's 21, the constant 16, the floor division's 17, the 29
    up to the three coordinate arrays, the join, the zeros and the scatter, the six that expand the mask, the product. -/
abbrev ops : List (HloOp τ sig (Elt F)) :=
  [
    StableHlo.nullary main_c (constantI S_ 32 16#32),
    StableHlo.TRef.unary (.of main_c : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary main_call0_call0.v0 (.of main_call0_v3 : StableHlo.TRef sig ⟨S256x128, .i32⟩) (broadcastInDim S256x128 ![] bcast_S_S256x128),
    StableHlo.TRef.binary (.of main_arg1 : StableHlo.TRef sig ⟨S256x128, .i32⟩) (.of main_call0_v3 : StableHlo.TRef sig ⟨S256x128, .i32⟩) (.of main_call0_v4 : StableHlo.TRef sig ⟨S256x128, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S256x128, .i32⟩) (broadcastInDim S256x128 ![] bcast_S_S256x128),
    StableHlo.TRef.binary (.of main_call0_v4 : StableHlo.TRef sig ⟨S256x128, .i32⟩) (.of main_call0_v5 : StableHlo.TRef sig ⟨S256x128, .i32⟩) (.of main_call0_v6 : StableHlo.TRef sig ⟨S256x128, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S256x128, .i32⟩) (broadcastInDim S256x128 ![] bcast_S_S256x128),
    StableHlo.TRef.binary (.of main_call0_v4 : StableHlo.TRef sig ⟨S256x128, .i32⟩) (.of main_call0_v7 : StableHlo.TRef sig ⟨S256x128, .i32⟩) (.of main_call0_v8 : StableHlo.TRef sig ⟨S256x128, .i1⟩) (cmpi .slt),
    StableHlo.TRef.nullary (.of main_call0_c_3 : StableHlo.TRef sig ⟨S_, .i32⟩) (constantI S_ 32 0#32),
    StableHlo.TRef.binary main_call0_call0.v0 (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S256x128, .i1⟩) (broadcastInDim S256x128 ![] bcast_S_S256x128),
    StableHlo.TRef.binary (.of main_call0_v8 : StableHlo.TRef sig ⟨S256x128, .i1⟩) (.of main_call0_v10 : StableHlo.TRef sig ⟨S256x128, .i1⟩) (.of main_call0_v11 : StableHlo.TRef sig ⟨S256x128, .i1⟩) (cmpi .ne),
    StableHlo.TRef.binary (.of main_call0_v11 : StableHlo.TRef sig ⟨S256x128, .i1⟩) (.of main_call0_v6 : StableHlo.TRef sig ⟨S256x128, .i1⟩) (.of main_call0_v12 : StableHlo.TRef sig ⟨S256x128, .i1⟩) andi,
    StableHlo.TRef.unary main_call0_call0.v0 (.of main_call0_v13 : StableHlo.TRef sig ⟨S256x128, .i32⟩) (broadcastInDim S256x128 ![] bcast_S_S256x128),
    StableHlo.TRef.binary (.of main_call0_v4 : StableHlo.TRef sig ⟨S256x128, .i32⟩) (.of main_call0_v13 : StableHlo.TRef sig ⟨S256x128, .i32⟩) (.of main_call0_v14 : StableHlo.TRef sig ⟨S256x128, .i32⟩) addi,
    StableHlo.TRef.ternary (.of main_call0_v12 : StableHlo.TRef sig ⟨S256x128, .i1⟩) (.of main_call0_v14 : StableHlo.TRef sig ⟨S256x128, .i32⟩) (.of main_call0_v4 : StableHlo.TRef sig ⟨S256x128, .i32⟩) (.of main_v0 : StableHlo.TRef sig ⟨S256x128, .i32⟩) select,
    StableHlo.nullary main_c_0 (constantI S_ 32 16#32),
    StableHlo.TRef.unary (.of main_c_0 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S256x128, .i32⟩) (broadcastInDim S256x128 ![] bcast_S_S256x128),
    StableHlo.TRef.binary (.of main_arg1 : StableHlo.TRef sig ⟨S256x128, .i32⟩) (.of main_call1_v1 : StableHlo.TRef sig ⟨S256x128, .i32⟩) (.of main_call1_v2 : StableHlo.TRef sig ⟨S256x128, .i32⟩) Host.divsi,
    StableHlo.TRef.unary (.of main_arg1 : StableHlo.TRef sig ⟨S256x128, .i32⟩) (.of main_call1_v3 : StableHlo.TRef sig ⟨S256x128, .i32⟩) signi,
    StableHlo.TRef.unary (.of main_call1_v0 : StableHlo.TRef sig ⟨S_, .i32⟩) (.of main_call1_v4 : StableHlo.TRef sig ⟨S_, .i32⟩) signi,
    StableHlo.TRef.unary (.of main_call1_v4 : StableHlo.TRef sig ⟨S_, .i32⟩) (.of main_call1_v5 : StableHlo.TRef sig ⟨S256x128, .i32⟩) (broadcastInDim S256x128 ![] bcast_S_S256x128),
    StableHlo.TRef.binary (.of main_call1_v3 : StableHlo.TRef sig ⟨S256x128, .i32⟩) (.of main_call1_v5 : StableHlo.TRef sig ⟨S256x128, .i32⟩) (.of main_call1_v6 : StableHlo.TRef sig ⟨S256x128, .i1⟩) (cmpi .ne),
    StableHlo.TRef.unary (.of main_call1_v0 : StableHlo.TRef sig ⟨S_, .i32⟩) (.of main_call1_v7 : StableHlo.TRef sig ⟨S256x128, .i32⟩) (broadcastInDim S256x128 ![] bcast_S_S256x128),
    StableHlo.TRef.binary (.of main_arg1 : StableHlo.TRef sig ⟨S256x128, .i32⟩) (.of main_call1_v7 : StableHlo.TRef sig ⟨S256x128, .i32⟩) (.of main_call1_v8 : StableHlo.TRef sig ⟨S256x128, .i32⟩) Host.remsi,
    StableHlo.TRef.nullary (.of main_call1_c : StableHlo.TRef sig ⟨S_, .i32⟩) (constantI S_ 32 0#32),
    StableHlo.TRef.unary (.of main_call1_c : StableHlo.TRef sig ⟨S_, .i32⟩) (.of main_call1_v9 : StableHlo.TRef sig ⟨S256x128, .i32⟩) (broadcastInDim S256x128 ![] bcast_S_S256x128),
    StableHlo.TRef.binary (.of main_call1_v8 : StableHlo.TRef sig ⟨S256x128, .i32⟩) (.of main_call1_v9 : StableHlo.TRef sig ⟨S256x128, .i32⟩) (.of main_call1_v10 : StableHlo.TRef sig ⟨S256x128, .i1⟩) (cmpi .ne),
    StableHlo.TRef.binary (.of main_call1_v6 : StableHlo.TRef sig ⟨S256x128, .i1⟩) (.of main_call1_v10 : StableHlo.TRef sig ⟨S256x128, .i1⟩) (.of main_call1_v11 : StableHlo.TRef sig ⟨S256x128, .i1⟩) andi,
    StableHlo.TRef.nullary (.of main_call1_c_0 : StableHlo.TRef sig ⟨S_, .i32⟩) (constantI S_ 32 1#32),
    StableHlo.TRef.unary (.of main_call1_c_0 : StableHlo.TRef sig ⟨S_, .i32⟩) (.of main_call1_v12 : StableHlo.TRef sig ⟨S256x128, .i32⟩) (broadcastInDim S256x128 ![] bcast_S_S256x128),
    StableHlo.TRef.binary (.of main_call1_v2 : StableHlo.TRef sig ⟨S256x128, .i32⟩) (.of main_call1_v12 : StableHlo.TRef sig ⟨S256x128, .i32⟩) (.of main_call1_v13 : StableHlo.TRef sig ⟨S256x128, .i32⟩) subi,
    StableHlo.TRef.ternary (.of main_call1_v11 : StableHlo.TRef sig ⟨S256x128, .i1⟩) (.of main_call1_v13 : StableHlo.TRef sig ⟨S256x128, .i32⟩) (.of main_call1_v2 : StableHlo.TRef sig ⟨S256x128, .i32⟩) (.of main_v1 : StableHlo.TRef sig ⟨S256x128, .i32⟩) select,
    StableHlo.nullary main_v2 (iotaInDim S256 32 0),
    StableHlo.unary main_v2 main_v3 (broadcastInDim S256x1 ![0] bcast_S256_S256x1_0 : (⟨S256, .i32⟩ : BufTy).Contents (Elt F) → (⟨S256x1, .i32⟩ : BufTy).Contents (Elt F)),
    StableHlo.nullary main_cst (constant S_ .f32 0x3F800000#32),
    StableHlo.unary main_cst main_v4 (broadcastInDim S256x16x16 ![] bcast_S_S256x16x16 : (⟨S_, .f32⟩ : BufTy).Contents (Elt F) → (⟨S256x16x16, .f32⟩ : BufTy).Contents (Elt F)),
    StableHlo.nullary main_c_1 (constantI S_ 32 0#32),
    StableHlo.unary main_c_1 main_v5 (broadcastInDim S256x1 ![] bcast_S_S256x1 : (⟨S_, .i32⟩ : BufTy).Contents (Elt F) → (⟨S256x1, .i32⟩ : BufTy).Contents (Elt F)),
    StableHlo.binary main_v3 main_v5 main_v6 (cmpi .slt : (⟨S256x1, .i32⟩ : BufTy).Contents (Elt F) → (⟨S256x1, .i32⟩ : BufTy).Contents (Elt F) → (⟨S256x1, .i1⟩ : BufTy).Contents (Elt F)),
    StableHlo.nullary main_c_2 (constantI S_ 32 256#32),
    StableHlo.unary main_c_2 main_v7 (broadcastInDim S256x1 ![] bcast_S_S256x1 : (⟨S_, .i32⟩ : BufTy).Contents (Elt F) → (⟨S256x1, .i32⟩ : BufTy).Contents (Elt F)),
    StableHlo.binary main_v3 main_v7 main_v8 (addi : (⟨S256x1, .i32⟩ : BufTy).Contents (Elt F) → (⟨S256x1, .i32⟩ : BufTy).Contents (Elt F) → (⟨S256x1, .i32⟩ : BufTy).Contents (Elt F)),
    StableHlo.ternary main_v6 main_v8 main_v3 main_v9 (select : (⟨S256x1, .i1⟩ : BufTy).Contents (Elt F) → (⟨S256x1, .i32⟩ : BufTy).Contents (Elt F) → (⟨S256x1, .i32⟩ : BufTy).Contents (Elt F) → (⟨S256x1, .i32⟩ : BufTy).Contents (Elt F)),
    StableHlo.nullary main_c_3 (constantI S_ 32 0#32),
    StableHlo.unary main_c_3 main_v10 (broadcastInDim S256x128 ![] bcast_S_S256x128 : (⟨S_, .i32⟩ : BufTy).Contents (Elt F) → (⟨S256x128, .i32⟩ : BufTy).Contents (Elt F)),
    StableHlo.binary main_v0 main_v10 main_v11 (cmpi .slt : (⟨S256x128, .i32⟩ : BufTy).Contents (Elt F) → (⟨S256x128, .i32⟩ : BufTy).Contents (Elt F) → (⟨S256x128, .i1⟩ : BufTy).Contents (Elt F)),
    StableHlo.nullary main_c_4 (constantI S_ 32 16#32),
    StableHlo.unary main_c_4 main_v12 (broadcastInDim S256x128 ![] bcast_S_S256x128 : (⟨S_, .i32⟩ : BufTy).Contents (Elt F) → (⟨S256x128, .i32⟩ : BufTy).Contents (Elt F)),
    StableHlo.binary main_v0 main_v12 main_v13 (addi : (⟨S256x128, .i32⟩ : BufTy).Contents (Elt F) → (⟨S256x128, .i32⟩ : BufTy).Contents (Elt F) → (⟨S256x128, .i32⟩ : BufTy).Contents (Elt F)),
    StableHlo.ternary main_v11 main_v13 main_v0 main_v14 (select : (⟨S256x128, .i1⟩ : BufTy).Contents (Elt F) → (⟨S256x128, .i32⟩ : BufTy).Contents (Elt F) → (⟨S256x128, .i32⟩ : BufTy).Contents (Elt F) → (⟨S256x128, .i32⟩ : BufTy).Contents (Elt F)),
    StableHlo.nullary main_c_5 (constantI S_ 32 0#32),
    StableHlo.unary main_c_5 main_v15 (broadcastInDim S256x128 ![] bcast_S_S256x128 : (⟨S_, .i32⟩ : BufTy).Contents (Elt F) → (⟨S256x128, .i32⟩ : BufTy).Contents (Elt F)),
    StableHlo.binary main_v1 main_v15 main_v16 (cmpi .slt : (⟨S256x128, .i32⟩ : BufTy).Contents (Elt F) → (⟨S256x128, .i32⟩ : BufTy).Contents (Elt F) → (⟨S256x128, .i1⟩ : BufTy).Contents (Elt F)),
    StableHlo.nullary main_c_6 (constantI S_ 32 16#32),
    StableHlo.unary main_c_6 main_v17 (broadcastInDim S256x128 ![] bcast_S_S256x128 : (⟨S_, .i32⟩ : BufTy).Contents (Elt F) → (⟨S256x128, .i32⟩ : BufTy).Contents (Elt F)),
    StableHlo.binary main_v1 main_v17 main_v18 (addi : (⟨S256x128, .i32⟩ : BufTy).Contents (Elt F) → (⟨S256x128, .i32⟩ : BufTy).Contents (Elt F) → (⟨S256x128, .i32⟩ : BufTy).Contents (Elt F)),
    StableHlo.ternary main_v16 main_v18 main_v1 main_v19 (select : (⟨S256x128, .i1⟩ : BufTy).Contents (Elt F) → (⟨S256x128, .i32⟩ : BufTy).Contents (Elt F) → (⟨S256x128, .i32⟩ : BufTy).Contents (Elt F) → (⟨S256x128, .i32⟩ : BufTy).Contents (Elt F)),
    StableHlo.unary main_v9 main_v20 (broadcastInDim S256x128 ![0, 1] bcast_S256x1_S256x128_0_1 : (⟨S256x1, .i32⟩ : BufTy).Contents (Elt F) → (⟨S256x128, .i32⟩ : BufTy).Contents (Elt F)),
    StableHlo.unary main_v20 main_v21 (broadcastInDim S256x128x1 ![0, 1] bcast_S256x128_S256x128x1_0_1 : (⟨S256x128, .i32⟩ : BufTy).Contents (Elt F) → (⟨S256x128x1, .i32⟩ : BufTy).Contents (Elt F)),
    StableHlo.unary main_v14 main_v22 (broadcastInDim S256x128x1 ![0, 1] bcast_S256x128_S256x128x1_0_1 : (⟨S256x128, .i32⟩ : BufTy).Contents (Elt F) → (⟨S256x128x1, .i32⟩ : BufTy).Contents (Elt F)),
    StableHlo.unary main_v19 main_v23 (broadcastInDim S256x128x1 ![0, 1] bcast_S256x128_S256x128x1_0_1 : (⟨S256x128, .i32⟩ : BufTy).Contents (Elt F) → (⟨S256x128x1, .i32⟩ : BufTy).Contents (Elt F)),
    StableHlo.nary ![main_v21, main_v22, main_v23] main_v24 (fun u => concatenate S256x128x3 2 [⟨S256x128x1, u 0⟩, ⟨S256x128x1, u 1⟩, ⟨S256x128x1, u 2⟩] concatenates_S256x128x1_S256x128x1_S256x128x1_S256x128x3_d2),
    StableHlo.nullary main_cst_7 (constant S_ .f32 0x00000000#32),
    StableHlo.unary main_cst_7 main_v25 (broadcastInDim S256x128 ![] bcast_S_S256x128 : (⟨S_, .f32⟩ : BufTy).Contents (Elt F) → (⟨S256x128, .f32⟩ : BufTy).Contents (Elt F)),
    StableHlo.ternary main_v4 main_v24 main_v25 main_v26 ((fun x i u => Host.scatter scatter_S256x16x16_S256x128x3_S256x128_n_012_012_2 (fun _ b => b) x i u) : (⟨S256x16x16, .f32⟩ : BufTy).Contents (Elt F) → (⟨S256x128x3, .i32⟩ : BufTy).Contents (Elt F) → (⟨S256x128, .f32⟩ : BufTy).Contents (Elt F) → (⟨S256x16x16, .f32⟩ : BufTy).Contents (Elt F)),
    StableHlo.unary main_v26 main_v27 (broadcastInDim S256x16x14x16 ![0, 1, 3] bcast_S256x16x16_S256x16x14x16_0_1_3 : (⟨S256x16x16, .f32⟩ : BufTy).Contents (Elt F) → (⟨S256x16x14x16, .f32⟩ : BufTy).Contents (Elt F)),
    StableHlo.reshape main_v27 main_v28 rfl shapeCasts_S256x16x14x16_S256x224x16,
    StableHlo.unary main_v28 main_v29 (broadcastInDim S256x224x16x14 ![0, 1, 2] bcast_S256x224x16_S256x224x16x14_0_1_2 : (⟨S256x224x16, .f32⟩ : BufTy).Contents (Elt F) → (⟨S256x224x16x14, .f32⟩ : BufTy).Contents (Elt F)),
    StableHlo.reshape main_v29 main_v30 rfl shapeCasts_S256x224x16x14_S256x224x224,
    StableHlo.unary main_v30 main_v31 (broadcastInDim S1x256x224x224 ![1, 2, 3] bcast_S256x224x224_S1x256x224x224_1_2_3 : (⟨S256x224x224, .f32⟩ : BufTy).Contents (Elt F) → (⟨S1x256x224x224, .f32⟩ : BufTy).Contents (Elt F)),
    StableHlo.unary main_v31 main_v32 (broadcastInDim S3x256x224x224 ![0, 1, 2, 3] bcast_S1x256x224x224_S3x256x224x224_0_1_2_3 : (⟨S1x256x224x224, .f32⟩ : BufTy).Contents (Elt F) → (⟨S3x256x224x224, .f32⟩ : BufTy).Contents (Elt F)),
    StableHlo.binary main_arg0 main_v32 main_v33 (mulf : (⟨S3x256x224x224, .f32⟩ : BufTy).Contents (Elt F) → (⟨S3x256x224x224, .f32⟩ : BufTy).Contents (Elt F) → (⟨S3x256x224x224, .f32⟩ : BufTy).Contents (Elt F)) ]

-- eighty sequencing steps re-associated: the rewriting under the chain goes one level deeper per statement
set_option maxRecDepth 4096 in
set_option maxHeartbeats 4000000 in
/-- The program is that line: the two outlined functions and their inner selects unfolded where they are called, both
    sides are one chain of steps once the sequencing is re-associated. -/
theorem main_eq (c : Dev nD) : main (F := F) c = StableHlo.seq ops := by
  simp only [main, fn_remainder.body, fn_floor_divide.body, fn_where.body, fn_where_0.body, StableHlo.seq, bind_assoc, pure_bind]

/-- No buffer and no semaphore of the signature is scoped: all 82 buffers are tensor values. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the signature only. -/
theorem ops_sub : (ops : List (HloOp τ sig (Elt F))).Forall fun op => op.bufs ⊆ StableHlo.tcRefs τ sig :=
  ⟨
    StableHlo.nullary_bufs_sub .., StableHlo.unary_bufs_sub .., StableHlo.nullary_bufs_sub .., StableHlo.binary_bufs_sub .., StableHlo.nullary_bufs_sub ..,
    StableHlo.ternary_bufs_sub .., StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub .., StableHlo.nullary_bufs_sub ..,
    StableHlo.binary_bufs_sub .., StableHlo.unary_bufs_sub .., StableHlo.binary_bufs_sub .., StableHlo.binary_bufs_sub .., StableHlo.unary_bufs_sub ..,
    StableHlo.binary_bufs_sub .., StableHlo.ternary_bufs_sub .., StableHlo.nullary_bufs_sub .., StableHlo.unary_bufs_sub .., StableHlo.unary_bufs_sub ..,
    StableHlo.binary_bufs_sub .., StableHlo.unary_bufs_sub .., StableHlo.unary_bufs_sub .., StableHlo.unary_bufs_sub .., StableHlo.binary_bufs_sub ..,
    StableHlo.unary_bufs_sub .., StableHlo.binary_bufs_sub .., StableHlo.nullary_bufs_sub .., StableHlo.unary_bufs_sub .., StableHlo.binary_bufs_sub ..,
    StableHlo.binary_bufs_sub .., StableHlo.nullary_bufs_sub .., StableHlo.unary_bufs_sub .., StableHlo.binary_bufs_sub .., StableHlo.ternary_bufs_sub ..,
    StableHlo.nullary_bufs_sub .., StableHlo.unary_bufs_sub .., StableHlo.nullary_bufs_sub .., StableHlo.unary_bufs_sub .., StableHlo.nullary_bufs_sub ..,
    StableHlo.unary_bufs_sub .., StableHlo.binary_bufs_sub .., StableHlo.nullary_bufs_sub .., StableHlo.unary_bufs_sub .., StableHlo.binary_bufs_sub ..,
    StableHlo.ternary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub ..,
    StableHlo.unary_bufs_sub .., StableHlo.unary_bufs_sub .., StableHlo.unary_bufs_sub .., StableHlo.unary_bufs_sub .., StableHlo.nary_bufs_sub ..,
    StableHlo.nullary_bufs_sub .., StableHlo.unary_bufs_sub .., StableHlo.ternary_bufs_sub .., StableHlo.unary_bufs_sub .., StableHlo.reshape_bufs_sub ..,
    StableHlo.unary_bufs_sub .., StableHlo.reshape_bufs_sub .., StableHlo.unary_bufs_sub .., StableHlo.unary_bufs_sub .., StableHlo.binary_bufs_sub ..⟩

/-! ## The line in two parts, cut where the coordinates are joined -/

/-- The 69 operations before the three coordinate arrays are joined. -/
def preOps : List (HloOp τ sig (Elt F)) :=
  [
    StableHlo.nullary main_c (constantI S_ 32 16#32),
    StableHlo.TRef.unary (.of main_c : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary main_call0_call0.v0 (.of main_call0_v3 : StableHlo.TRef sig ⟨S256x128, .i32⟩) (broadcastInDim S256x128 ![] bcast_S_S256x128),
    StableHlo.TRef.binary (.of main_arg1 : StableHlo.TRef sig ⟨S256x128, .i32⟩) (.of main_call0_v3 : StableHlo.TRef sig ⟨S256x128, .i32⟩) (.of main_call0_v4 : StableHlo.TRef sig ⟨S256x128, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S256x128, .i32⟩) (broadcastInDim S256x128 ![] bcast_S_S256x128),
    StableHlo.TRef.binary (.of main_call0_v4 : StableHlo.TRef sig ⟨S256x128, .i32⟩) (.of main_call0_v5 : StableHlo.TRef sig ⟨S256x128, .i32⟩) (.of main_call0_v6 : StableHlo.TRef sig ⟨S256x128, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S256x128, .i32⟩) (broadcastInDim S256x128 ![] bcast_S_S256x128),
    StableHlo.TRef.binary (.of main_call0_v4 : StableHlo.TRef sig ⟨S256x128, .i32⟩) (.of main_call0_v7 : StableHlo.TRef sig ⟨S256x128, .i32⟩) (.of main_call0_v8 : StableHlo.TRef sig ⟨S256x128, .i1⟩) (cmpi .slt),
    StableHlo.TRef.nullary (.of main_call0_c_3 : StableHlo.TRef sig ⟨S_, .i32⟩) (constantI S_ 32 0#32),
    StableHlo.TRef.binary main_call0_call0.v0 (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S256x128, .i1⟩) (broadcastInDim S256x128 ![] bcast_S_S256x128),
    StableHlo.TRef.binary (.of main_call0_v8 : StableHlo.TRef sig ⟨S256x128, .i1⟩) (.of main_call0_v10 : StableHlo.TRef sig ⟨S256x128, .i1⟩) (.of main_call0_v11 : StableHlo.TRef sig ⟨S256x128, .i1⟩) (cmpi .ne),
    StableHlo.TRef.binary (.of main_call0_v11 : StableHlo.TRef sig ⟨S256x128, .i1⟩) (.of main_call0_v6 : StableHlo.TRef sig ⟨S256x128, .i1⟩) (.of main_call0_v12 : StableHlo.TRef sig ⟨S256x128, .i1⟩) andi,
    StableHlo.TRef.unary main_call0_call0.v0 (.of main_call0_v13 : StableHlo.TRef sig ⟨S256x128, .i32⟩) (broadcastInDim S256x128 ![] bcast_S_S256x128),
    StableHlo.TRef.binary (.of main_call0_v4 : StableHlo.TRef sig ⟨S256x128, .i32⟩) (.of main_call0_v13 : StableHlo.TRef sig ⟨S256x128, .i32⟩) (.of main_call0_v14 : StableHlo.TRef sig ⟨S256x128, .i32⟩) addi,
    StableHlo.TRef.ternary (.of main_call0_v12 : StableHlo.TRef sig ⟨S256x128, .i1⟩) (.of main_call0_v14 : StableHlo.TRef sig ⟨S256x128, .i32⟩) (.of main_call0_v4 : StableHlo.TRef sig ⟨S256x128, .i32⟩) (.of main_v0 : StableHlo.TRef sig ⟨S256x128, .i32⟩) select,
    StableHlo.nullary main_c_0 (constantI S_ 32 16#32),
    StableHlo.TRef.unary (.of main_c_0 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S256x128, .i32⟩) (broadcastInDim S256x128 ![] bcast_S_S256x128),
    StableHlo.TRef.binary (.of main_arg1 : StableHlo.TRef sig ⟨S256x128, .i32⟩) (.of main_call1_v1 : StableHlo.TRef sig ⟨S256x128, .i32⟩) (.of main_call1_v2 : StableHlo.TRef sig ⟨S256x128, .i32⟩) Host.divsi,
    StableHlo.TRef.unary (.of main_arg1 : StableHlo.TRef sig ⟨S256x128, .i32⟩) (.of main_call1_v3 : StableHlo.TRef sig ⟨S256x128, .i32⟩) signi,
    StableHlo.TRef.unary (.of main_call1_v0 : StableHlo.TRef sig ⟨S_, .i32⟩) (.of main_call1_v4 : StableHlo.TRef sig ⟨S_, .i32⟩) signi,
    StableHlo.TRef.unary (.of main_call1_v4 : StableHlo.TRef sig ⟨S_, .i32⟩) (.of main_call1_v5 : StableHlo.TRef sig ⟨S256x128, .i32⟩) (broadcastInDim S256x128 ![] bcast_S_S256x128),
    StableHlo.TRef.binary (.of main_call1_v3 : StableHlo.TRef sig ⟨S256x128, .i32⟩) (.of main_call1_v5 : StableHlo.TRef sig ⟨S256x128, .i32⟩) (.of main_call1_v6 : StableHlo.TRef sig ⟨S256x128, .i1⟩) (cmpi .ne),
    StableHlo.TRef.unary (.of main_call1_v0 : StableHlo.TRef sig ⟨S_, .i32⟩) (.of main_call1_v7 : StableHlo.TRef sig ⟨S256x128, .i32⟩) (broadcastInDim S256x128 ![] bcast_S_S256x128),
    StableHlo.TRef.binary (.of main_arg1 : StableHlo.TRef sig ⟨S256x128, .i32⟩) (.of main_call1_v7 : StableHlo.TRef sig ⟨S256x128, .i32⟩) (.of main_call1_v8 : StableHlo.TRef sig ⟨S256x128, .i32⟩) Host.remsi,
    StableHlo.TRef.nullary (.of main_call1_c : StableHlo.TRef sig ⟨S_, .i32⟩) (constantI S_ 32 0#32),
    StableHlo.TRef.unary (.of main_call1_c : StableHlo.TRef sig ⟨S_, .i32⟩) (.of main_call1_v9 : StableHlo.TRef sig ⟨S256x128, .i32⟩) (broadcastInDim S256x128 ![] bcast_S_S256x128),
    StableHlo.TRef.binary (.of main_call1_v8 : StableHlo.TRef sig ⟨S256x128, .i32⟩) (.of main_call1_v9 : StableHlo.TRef sig ⟨S256x128, .i32⟩) (.of main_call1_v10 : StableHlo.TRef sig ⟨S256x128, .i1⟩) (cmpi .ne),
    StableHlo.TRef.binary (.of main_call1_v6 : StableHlo.TRef sig ⟨S256x128, .i1⟩) (.of main_call1_v10 : StableHlo.TRef sig ⟨S256x128, .i1⟩) (.of main_call1_v11 : StableHlo.TRef sig ⟨S256x128, .i1⟩) andi,
    StableHlo.TRef.nullary (.of main_call1_c_0 : StableHlo.TRef sig ⟨S_, .i32⟩) (constantI S_ 32 1#32),
    StableHlo.TRef.unary (.of main_call1_c_0 : StableHlo.TRef sig ⟨S_, .i32⟩) (.of main_call1_v12 : StableHlo.TRef sig ⟨S256x128, .i32⟩) (broadcastInDim S256x128 ![] bcast_S_S256x128),
    StableHlo.TRef.binary (.of main_call1_v2 : StableHlo.TRef sig ⟨S256x128, .i32⟩) (.of main_call1_v12 : StableHlo.TRef sig ⟨S256x128, .i32⟩) (.of main_call1_v13 : StableHlo.TRef sig ⟨S256x128, .i32⟩) subi,
    StableHlo.TRef.ternary (.of main_call1_v11 : StableHlo.TRef sig ⟨S256x128, .i1⟩) (.of main_call1_v13 : StableHlo.TRef sig ⟨S256x128, .i32⟩) (.of main_call1_v2 : StableHlo.TRef sig ⟨S256x128, .i32⟩) (.of main_v1 : StableHlo.TRef sig ⟨S256x128, .i32⟩) select,
    StableHlo.nullary main_v2 (iotaInDim S256 32 0),
    StableHlo.unary main_v2 main_v3 (broadcastInDim S256x1 ![0] bcast_S256_S256x1_0 : (⟨S256, .i32⟩ : BufTy).Contents (Elt F) → (⟨S256x1, .i32⟩ : BufTy).Contents (Elt F)),
    StableHlo.nullary main_cst (constant S_ .f32 0x3F800000#32),
    StableHlo.unary main_cst main_v4 (broadcastInDim S256x16x16 ![] bcast_S_S256x16x16 : (⟨S_, .f32⟩ : BufTy).Contents (Elt F) → (⟨S256x16x16, .f32⟩ : BufTy).Contents (Elt F)),
    StableHlo.nullary main_c_1 (constantI S_ 32 0#32),
    StableHlo.unary main_c_1 main_v5 (broadcastInDim S256x1 ![] bcast_S_S256x1 : (⟨S_, .i32⟩ : BufTy).Contents (Elt F) → (⟨S256x1, .i32⟩ : BufTy).Contents (Elt F)),
    StableHlo.binary main_v3 main_v5 main_v6 (cmpi .slt : (⟨S256x1, .i32⟩ : BufTy).Contents (Elt F) → (⟨S256x1, .i32⟩ : BufTy).Contents (Elt F) → (⟨S256x1, .i1⟩ : BufTy).Contents (Elt F)),
    StableHlo.nullary main_c_2 (constantI S_ 32 256#32),
    StableHlo.unary main_c_2 main_v7 (broadcastInDim S256x1 ![] bcast_S_S256x1 : (⟨S_, .i32⟩ : BufTy).Contents (Elt F) → (⟨S256x1, .i32⟩ : BufTy).Contents (Elt F)),
    StableHlo.binary main_v3 main_v7 main_v8 (addi : (⟨S256x1, .i32⟩ : BufTy).Contents (Elt F) → (⟨S256x1, .i32⟩ : BufTy).Contents (Elt F) → (⟨S256x1, .i32⟩ : BufTy).Contents (Elt F)),
    StableHlo.ternary main_v6 main_v8 main_v3 main_v9 (select : (⟨S256x1, .i1⟩ : BufTy).Contents (Elt F) → (⟨S256x1, .i32⟩ : BufTy).Contents (Elt F) → (⟨S256x1, .i32⟩ : BufTy).Contents (Elt F) → (⟨S256x1, .i32⟩ : BufTy).Contents (Elt F)),
    StableHlo.nullary main_c_3 (constantI S_ 32 0#32),
    StableHlo.unary main_c_3 main_v10 (broadcastInDim S256x128 ![] bcast_S_S256x128 : (⟨S_, .i32⟩ : BufTy).Contents (Elt F) → (⟨S256x128, .i32⟩ : BufTy).Contents (Elt F)),
    StableHlo.binary main_v0 main_v10 main_v11 (cmpi .slt : (⟨S256x128, .i32⟩ : BufTy).Contents (Elt F) → (⟨S256x128, .i32⟩ : BufTy).Contents (Elt F) → (⟨S256x128, .i1⟩ : BufTy).Contents (Elt F)),
    StableHlo.nullary main_c_4 (constantI S_ 32 16#32),
    StableHlo.unary main_c_4 main_v12 (broadcastInDim S256x128 ![] bcast_S_S256x128 : (⟨S_, .i32⟩ : BufTy).Contents (Elt F) → (⟨S256x128, .i32⟩ : BufTy).Contents (Elt F)),
    StableHlo.binary main_v0 main_v12 main_v13 (addi : (⟨S256x128, .i32⟩ : BufTy).Contents (Elt F) → (⟨S256x128, .i32⟩ : BufTy).Contents (Elt F) → (⟨S256x128, .i32⟩ : BufTy).Contents (Elt F)),
    StableHlo.ternary main_v11 main_v13 main_v0 main_v14 (select : (⟨S256x128, .i1⟩ : BufTy).Contents (Elt F) → (⟨S256x128, .i32⟩ : BufTy).Contents (Elt F) → (⟨S256x128, .i32⟩ : BufTy).Contents (Elt F) → (⟨S256x128, .i32⟩ : BufTy).Contents (Elt F)),
    StableHlo.nullary main_c_5 (constantI S_ 32 0#32),
    StableHlo.unary main_c_5 main_v15 (broadcastInDim S256x128 ![] bcast_S_S256x128 : (⟨S_, .i32⟩ : BufTy).Contents (Elt F) → (⟨S256x128, .i32⟩ : BufTy).Contents (Elt F)),
    StableHlo.binary main_v1 main_v15 main_v16 (cmpi .slt : (⟨S256x128, .i32⟩ : BufTy).Contents (Elt F) → (⟨S256x128, .i32⟩ : BufTy).Contents (Elt F) → (⟨S256x128, .i1⟩ : BufTy).Contents (Elt F)),
    StableHlo.nullary main_c_6 (constantI S_ 32 16#32),
    StableHlo.unary main_c_6 main_v17 (broadcastInDim S256x128 ![] bcast_S_S256x128 : (⟨S_, .i32⟩ : BufTy).Contents (Elt F) → (⟨S256x128, .i32⟩ : BufTy).Contents (Elt F)),
    StableHlo.binary main_v1 main_v17 main_v18 (addi : (⟨S256x128, .i32⟩ : BufTy).Contents (Elt F) → (⟨S256x128, .i32⟩ : BufTy).Contents (Elt F) → (⟨S256x128, .i32⟩ : BufTy).Contents (Elt F)),
    StableHlo.ternary main_v16 main_v18 main_v1 main_v19 (select : (⟨S256x128, .i1⟩ : BufTy).Contents (Elt F) → (⟨S256x128, .i32⟩ : BufTy).Contents (Elt F) → (⟨S256x128, .i32⟩ : BufTy).Contents (Elt F) → (⟨S256x128, .i32⟩ : BufTy).Contents (Elt F)),
    StableHlo.unary main_v9 main_v20 (broadcastInDim S256x128 ![0, 1] bcast_S256x1_S256x128_0_1 : (⟨S256x1, .i32⟩ : BufTy).Contents (Elt F) → (⟨S256x128, .i32⟩ : BufTy).Contents (Elt F)),
    StableHlo.unary main_v20 main_v21 (broadcastInDim S256x128x1 ![0, 1] bcast_S256x128_S256x128x1_0_1 : (⟨S256x128, .i32⟩ : BufTy).Contents (Elt F) → (⟨S256x128x1, .i32⟩ : BufTy).Contents (Elt F)),
    StableHlo.unary main_v14 main_v22 (broadcastInDim S256x128x1 ![0, 1] bcast_S256x128_S256x128x1_0_1 : (⟨S256x128, .i32⟩ : BufTy).Contents (Elt F) → (⟨S256x128x1, .i32⟩ : BufTy).Contents (Elt F)),
    StableHlo.unary main_v19 main_v23 (broadcastInDim S256x128x1 ![0, 1] bcast_S256x128_S256x128x1_0_1 : (⟨S256x128, .i32⟩ : BufTy).Contents (Elt F) → (⟨S256x128x1, .i32⟩ : BufTy).Contents (Elt F)) ]

/-- The join of the three coordinate arrays into index vectors, and the ten operations after it: the zeros, the
    scatter, the six that expand the mask, the product. -/
abbrev postOps : List (HloOp τ sig (Elt F)) :=
  [
    StableHlo.nary ![main_v21, main_v22, main_v23] main_v24 (fun u => concatenate S256x128x3 2 [⟨S256x128x1, u 0⟩, ⟨S256x128x1, u 1⟩, ⟨S256x128x1, u 2⟩] concatenates_S256x128x1_S256x128x1_S256x128x1_S256x128x3_d2),
    StableHlo.nullary main_cst_7 (constant S_ .f32 0x00000000#32),
    StableHlo.unary main_cst_7 main_v25 (broadcastInDim S256x128 ![] bcast_S_S256x128 : (⟨S_, .f32⟩ : BufTy).Contents (Elt F) → (⟨S256x128, .f32⟩ : BufTy).Contents (Elt F)),
    StableHlo.ternary main_v4 main_v24 main_v25 main_v26 ((fun x i u => Host.scatter scatter_S256x16x16_S256x128x3_S256x128_n_012_012_2 (fun _ b => b) x i u) : (⟨S256x16x16, .f32⟩ : BufTy).Contents (Elt F) → (⟨S256x128x3, .i32⟩ : BufTy).Contents (Elt F) → (⟨S256x128, .f32⟩ : BufTy).Contents (Elt F) → (⟨S256x16x16, .f32⟩ : BufTy).Contents (Elt F)),
    StableHlo.unary main_v26 main_v27 (broadcastInDim S256x16x14x16 ![0, 1, 3] bcast_S256x16x16_S256x16x14x16_0_1_3 : (⟨S256x16x16, .f32⟩ : BufTy).Contents (Elt F) → (⟨S256x16x14x16, .f32⟩ : BufTy).Contents (Elt F)),
    StableHlo.reshape main_v27 main_v28 rfl shapeCasts_S256x16x14x16_S256x224x16,
    StableHlo.unary main_v28 main_v29 (broadcastInDim S256x224x16x14 ![0, 1, 2] bcast_S256x224x16_S256x224x16x14_0_1_2 : (⟨S256x224x16, .f32⟩ : BufTy).Contents (Elt F) → (⟨S256x224x16x14, .f32⟩ : BufTy).Contents (Elt F)),
    StableHlo.reshape main_v29 main_v30 rfl shapeCasts_S256x224x16x14_S256x224x224,
    StableHlo.unary main_v30 main_v31 (broadcastInDim S1x256x224x224 ![1, 2, 3] bcast_S256x224x224_S1x256x224x224_1_2_3 : (⟨S256x224x224, .f32⟩ : BufTy).Contents (Elt F) → (⟨S1x256x224x224, .f32⟩ : BufTy).Contents (Elt F)),
    StableHlo.unary main_v31 main_v32 (broadcastInDim S3x256x224x224 ![0, 1, 2, 3] bcast_S1x256x224x224_S3x256x224x224_0_1_2_3 : (⟨S1x256x224x224, .f32⟩ : BufTy).Contents (Elt F) → (⟨S3x256x224x224, .f32⟩ : BufTy).Contents (Elt F)),
    StableHlo.binary main_arg0 main_v32 main_v33 (mulf : (⟨S3x256x224x224, .f32⟩ : BufTy).Contents (Elt F) → (⟨S3x256x224x224, .f32⟩ : BufTy).Contents (Elt F) → (⟨S3x256x224x224, .f32⟩ : BufTy).Contents (Elt F)) ]

/-- The line is the two parts one after the other. -/
theorem ops_split : (ops : List (HloOp τ sig (Elt F))) = preOps ++ postOps := rfl

/-! ## Before the join: the three coordinate arrays and the ones, over any contents -/

section Reads

variable (W : Valuation τ sig (Elt F))

set_option maxHeartbeats 2000000 in
/-- The frame-number coordinate. -/
theorem read_idxT : StableHlo.after preOps W (Proc.devRef .tc main_v21) = Cert.MaskMul.idxT := by
  simp only [preOps]
  after_results_simp
  rfl

set_option maxHeartbeats 2000000 in
/-- The patch-row coordinate, of the patch numbers. -/
theorem read_idxH : StableHlo.after preOps W (Proc.devRef .tc main_v22) = Cert.MaskMul.idxH (W (Proc.devRef .tc main_arg1)) := by
  simp only [preOps]
  after_results_simp
  rfl

set_option maxHeartbeats 2000000 in
/-- The patch-column coordinate, of the patch numbers. -/
theorem read_idxW : StableHlo.after preOps W (Proc.devRef .tc main_v23) = Cert.MaskMul.idxW (W (Proc.devRef .tc main_arg1)) := by
  simp only [preOps]
  after_results_simp
  rfl

set_option maxHeartbeats 2000000 in
/-- The all-ones patch grid. -/
theorem read_ones : StableHlo.after preOps W (Proc.devRef .tc main_v4) = Cert.MaskMul.ones (F := F) := by
  simp only [preOps]
  after_results_simp
  rfl

set_option maxHeartbeats 2000000 in
/-- None of the 69 writes the first argument's buffer. -/
theorem keep_arg0 : StableHlo.after preOps W (Proc.devRef .tc main_arg0) = W (Proc.devRef .tc main_arg0) := by
  simp only [preOps]
  after_results_simp

set_option maxHeartbeats 2000000 in
/-- None of the 69 writes the second argument's buffer. -/
theorem keep_arg1 : StableHlo.after preOps W (Proc.devRef .tc main_arg1) = W (Proc.devRef .tc main_arg1) := by
  simp only [preOps]
  after_results_simp

end Reads

/-! ## The whole line -/

set_option maxHeartbeats 2000000 in
/-- The fold read at the result buffer. After the join the read is one pass down to the four arrays computed before
    it and the first argument; those are the reads above, and what is left is `Cert.MaskMul.result` of the two
    arguments' contents term for term. -/
theorem v33_eq (V : Valuation τ sig (Elt F)) :
    StableHlo.after ops V (main_v33 : DevRef τ sig)
      = Cert.MaskMul.result (V (main_arg0 : DevRef τ sig)) (V (main_arg1 : DevRef τ sig)) := by
  rw [ops_split, Cert.LibAfterAppend.after_append]
  simp only [postOps]
  after_results_simp
  dsimp only [Matrix.cons_val]
  rw [read_idxT, read_idxH, read_idxW, read_ones, keep_arg0]
  rfl

set_option maxHeartbeats 2000000 in
/-- No operation writes the first argument's buffer. -/
theorem arg0_eq (V : Valuation τ sig (Elt F)) :
    StableHlo.after ops V (main_arg0 : DevRef τ sig) = V (main_arg0 : DevRef τ sig) := by
  rw [ops_split, Cert.LibAfterAppend.after_append]
  simp only [postOps]
  after_results_simp
  exact keep_arg0 V

set_option maxHeartbeats 2000000 in
/-- No operation writes the second argument's buffer. -/
theorem arg1_eq (V : Valuation τ sig (Elt F)) :
    StableHlo.after ops V (main_arg1 : DevRef τ sig) = V (main_arg1 : DevRef τ sig) := by
  rw [ops_split, Cert.LibAfterAppend.after_append]
  simp only [postOps]
  after_results_simp
  exact keep_arg1 V

/-- On the one device, for any float values, from any memory with zero counters: every weakly fair execution of the
    reference terminates with the result buffer at `Cert.MaskMul.result` of the arguments' launch contents and both
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33) = Cert.MaskMul.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v33).trans (v33_eq _), (h c main_arg0).trans (arg0_eq _), (h c main_arg1).trans (arg1_eq _)⟩)
    (StableHlo.run_seq scopedRefs_eq scopedSems_eq defs main (fun _ => ops) main_eq (fun _ => ops_sub) m ρ)

end Cert.ReferenceIdeal.Hand

end
-- ==== Proof.lean ====
/-
  The certificate of a patch-masking kernel against its jnp reference.

  Both programs multiply a stack of frames [3, 256, 224, 224] by a mask that is constant on 14 x 14 pixel patches: for
  frame t the patches listed in row t of an index array are zeroed, all others kept. Both build the same
  256 x 16 x 16 patch mask by the same operations of the index array (`maskOf`). The reference repeats each mask entry
  14 times along both pixel axes and multiplies. The kernel, over a grid of 32 blocks of 8 frames, repeats the mask
  rows by a broadcast and the mask columns by a matrix product with a 16 x 224 matrix of zeros and ones whose column w
  has its single one in row w div 14, and multiplies. On the extended reals a sum of products in which all factors but
  one are zero, the remaining one being one, is the remaining term — x · 0 = 0 for every x, the infinities included —
  so the kernel's result entry (c, t, h, w) is frames(c, t, h, w) · mask(t, h div 14, w div 14), which is the
  reference's, whatever the frames hold: the finiteness precondition is not used.

  The three frames: each program terminates without a fault and leaves its arguments unchanged — the kernel's programs by
  the pipelined region's proof data (every staging buffer named at every grid point), the reference by its run read
  back operation by operation. The idealization rewrote nothing, so there is nothing to preserve.
-/
import proofs.«147172_j74818330296837_2_alg».proof.Defs
import proofs.«147172_j74818330296837_2_alg».proof.Proof.Gen.Kernel
import proofs.«147172_j74818330296837_2_alg».proof.Proof.Gen.KernelIdeal
import proofs.«147172_j74818330296837_2_alg».proof.Proof.Gen.ReferenceIdeal
import proofs.«147172_j74818330296837_2_alg».proof.Proof.Gen.Pre_finite_inputs
import proofs.«147172_j74818330296837_2_alg».proof.Proof.FrameK
import proofs.«147172_j74818330296837_2_alg».proof.Proof.FrameKI
import proofs.«147172_j74818330296837_2_alg».proof.Proof.KFinal
import proofs.«147172_j74818330296837_2_alg».proof.Proof.RefRun
import proofs.«147172_j74818330296837_2_alg».proof.Proof.LayoutAt
import Idealize.ShloMosaic.Adequacy
import Idealize.ShloMosaic.Init

noncomputable section

namespace Cert.Proof

open Idealize.ShloMosaic Idealize.ShloMosaic.TcCoe Idealize.SL.Sem ValueIdx

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2) (Cert.ReferenceIdeal.Hand.run (F := Ideal) m ρ)

/-- The reference's result is the frames times the mask entry of each pixel's patch: its six layout operations read at
    (c, t, h, w) give the mask at (t, h div 14, w div 14). -/
theorem result_eq (a0 : FVec Ideal Cert.ReferenceIdeal.S3x256x224x224 .f32) (a1 : IVec Cert.ReferenceIdeal.S256x128 32) :
    Cert.MaskMul.result (F := Ideal) a0 a1 = Cert.MaskMul.masked a0 (Cert.MaskMul.maskOf (F := Ideal) a1) := by
  funext i
  obtain ⟨c, t, h, w, rfl⟩ : ∃ (c : Fin 3) (t : Fin 256) (h w : Fin 224), i = ix4 c t h w := ⟨i 0, i 1, i 2, i 3, eq_ix4 i⟩
  rw [Cert.MaskMul.masked_ix4]
  unfold Cert.MaskMul.result
  rw [mulf_apply, Cert.MaskMul.expand_apply]

theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2]
  exact result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
